-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S384x64 : Shape := ⟨2, ![384, 64]⟩
abbrev S64 : Shape := ⟨1, ![64]⟩
abbrev S384x16 : Shape := ⟨2, ![384, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S384x16 : S_.BroadcastsInDim S384x16 (![] : Fin 0 → Fin S384x16.rank)
  reducesTo_S384x16_S_d0_1 : S384x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S384x16 1) : IVec S_ 1 :=
  let main_c_5 : IVec S_ 1 := constantI S_ 1 1#1
  let main_v17 : IVec S_ 1 := (fun x v => Host.reduce IntOp.andi x v reducesTo_S384x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : IVec S1600000 32) (main_arg3 : FVec F S384x64 .f32) (main_arg4 : FVec F S64 .f32) (main_arg5 : FVec F S384x16 .f32) (main_arg6 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S384x64 .f32 := Host.absf main_arg3
  let main_cst_0 : FVec F S_ .f32 := constant S_ .f32 0x7F800000#32
  let main_v5 : FVec F S384x64 .f32 := broadcastInDim S384x64 ![] bcast_S_S384x64 main_cst_0
  let main_v6 : IVec S384x64 1 := cmpf .olt main_v4 main_v5
  let main_c_1 : IVec S_ 1 := constantI S_ 1 1#1
  let main_v7 : IVec S_ 1 := (fun x v => Host.reduce IntOp.andi x v reducesTo_S384x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S384x16 .f32 := Host.absf main_arg5
  let main_cst_4 : FVec F S_ .f32 := constant S_ .f32 0x7F800000#32
  let main_v15 : FVec F S384x16 .f32 := broadcastInDim S384x16 ![] bcast_S_S384x16 main_cst_4
  let main_v16 : IVec S384x16 1 := cmpf .olt main_v14 main_v15
  fn_part1 (F := F) main_arg6 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S384x64 : Shape := ⟨2, ![384, 64]⟩
abbrev S64 : Shape := ⟨1, ![64]⟩
abbrev S384x16 : Shape := ⟨2, ![384, 16]⟩
abbrev S16 : Shape := ⟨1, ![16]⟩
abbrev S1x1600000 : Shape := ⟨2, ![1, 1600000]⟩
abbrev S_ : Shape := ⟨0, ![]⟩
abbrev S600000 : Shape := ⟨1, ![600000]⟩
abbrev S1600000x1 : Shape := ⟨2, ![1600000, 1]⟩
abbrev S6x100000 : Shape := ⟨2, ![6, 100000]⟩
abbrev S100000x6 : Shape := ⟨2, ![100000, 6]⟩
abbrev S1600000x64 : Shape := ⟨2, ![1600000, 64]⟩
abbrev S600000x64 : Shape := ⟨2, ![600000, 64]⟩
abbrev S6x100000x64 : Shape := ⟨3, ![6, 100000, 64]⟩
abbrev S1x64 : Shape := ⟨2, ![1, 64]⟩
abbrev S6x2000x64 : Shape := ⟨3, ![6, 2000, 64]⟩
abbrev S2000x6 : Shape := ⟨2, ![2000, 6]⟩
abbrev S2000x64 : Shape := ⟨2, ![2000, 64]⟩
abbrev S2000x384 : Shape := ⟨2, ![2000, 384]⟩
abbrev S1x2000x64 : Shape := ⟨3, ![1, 2000, 64]⟩
abbrev S2000x1 : Shape := ⟨2, ![2000, 1]⟩
abbrev S2000 : Shape := ⟨1, ![2000]⟩
abbrev S1x16 : Shape := ⟨2, ![1, 16]⟩
abbrev S100000x16 : Shape := ⟨2, ![100000, 16]⟩
abbrev S2000x16 : Shape := ⟨2, ![2000, 16]⟩

abbrev nBuf : Space → Nat
  | .hbm => 57
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .i32⟩
  | .hbm, ⟨3, _⟩ => ⟨S384x64, .f32⟩
  | .hbm, ⟨4, _⟩ => ⟨S64, .f32⟩
  | .hbm, ⟨5, _⟩ => ⟨S384x16, .f32⟩
  | .hbm, ⟨6, _⟩ => ⟨S16, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S600000, .f32⟩
  | .hbm, ⟨19, _⟩ => ⟨S1600000x1, .i32⟩
  | .hbm, ⟨20, _⟩ => ⟨S600000, .f32⟩
  | .hbm, ⟨21, _⟩ => ⟨S6x100000, .f32⟩
  | .hbm, ⟨22, _⟩ => ⟨S100000x6, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S_, .f32⟩
  | .hbm, ⟨33, _⟩ => ⟨S600000x64, .f32⟩
  | .hbm, ⟨34, _⟩ => ⟨S1600000x1, .i32⟩
  | .hbm, ⟨35, _⟩ => ⟨S600000x64, .f32⟩
  | .hbm, ⟨36, _⟩ => ⟨S6x100000x64, .f32⟩
  | .hbm, ⟨37, _⟩ => ⟨S384x64, .bf16⟩
  | .hbm, ⟨38, _⟩ => ⟨S1x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S600000x64, .f32⟩
  | .hbm, ⟨51, _⟩ => ⟨S1600000x1, .i32⟩
  | .hbm, ⟨52, _⟩ => ⟨S600000x64, .f32⟩
  | .hbm, ⟨53, _⟩ => ⟨S6x100000x64, .f32⟩
  | .hbm, ⟨54, _⟩ => ⟨S384x16, .bf16⟩
  | .hbm, ⟨55, _⟩ => ⟨S1x16, .f32⟩
  | .hbm, ⟨56, _⟩ => ⟨S100000x16, .f32⟩
  | .local _ .vmem, ⟨0, _⟩ => ⟨S6x2000x64, .f32⟩
  | .local _ .vmem, ⟨1, _⟩ => ⟨S6x2000x64, .f32⟩
  | .local _ .vmem, ⟨2, _⟩ => ⟨S2000x6, .f32⟩
  | .local _ .vmem, ⟨3, _⟩ => ⟨S2000x6, .f32⟩
  | .local _ .vmem, ⟨4, _⟩ => ⟨S384x64, .bf16⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S2000x384, .bf16⟩
  | .local _ .vmem, ⟨9, _⟩ => ⟨S6x2000x64, .f32⟩
  | .local _ .vmem, ⟨10, _⟩ => ⟨S6x2000x64, .f32⟩
  | .local _ .vmem, ⟨11, _⟩ => ⟨S2000x6, .f32⟩
  | .local _ .vmem, ⟨12, _⟩ => ⟨S2000x6, .f32⟩
  | .local _ .vmem, ⟨13, _⟩ => ⟨S384x16, .bf16⟩
  | .local _ .vmem, ⟨14, _⟩ => ⟨S1x16, .f32⟩
  | .local _ .vmem, ⟨15, _⟩ => ⟨S2000x16, .f32⟩
  | .local _ .vmem, ⟨16, _⟩ => ⟨S2000x16, .f32⟩
  | .local _ .vmem, ⟨17, _⟩ => ⟨S2000x384, .bf16⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6x2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x6 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S384x16 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S600000 : S_.BroadcastsInDim S600000 (![] : Fin 0 → Fin S600000.rank)
  bcast_S1600000_S1600000x1_0 : S1600000.BroadcastsInDim S1600000x1 (![0] : Fin 1 → Fin S1600000x1.rank)
  shapeCasts_S600000_S6x100000 : S600000.ShapeCasts S6x100000
  transposes_S6x100000_S100000x6_1_0 : S6x100000.Transposes [1, 0] S100000x6
  bcast_S_S600000x64 : S_.BroadcastsInDim S600000x64 (![] : Fin 0 → Fin S600000x64.rank)
  shapeCasts_S600000x64_S6x100000x64 : S600000x64.ShapeCasts S6x100000x64
  bitsLt_bf16_f32 : FTy.bits .bf16 < FTy.bits .f32
  shapeCasts_S64_S1x64 : S64.ShapeCasts S1x64
  inb_S384x64_S384x64_0_0 : ∀ a, (![0, 0] : Fin 2 → Nat) a + S384x64.size a ≤ S384x64.size a
  h_S384x64 : 0 < S384x64.numel
  shapeCasts_S384x64_S384x64 : S384x64.ShapeCasts S384x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2000x6_S2000x6_0_0 : ∀ a, (![0, 0] : Fin 2 → Nat) a + S2000x6.size a ≤ S2000x6.size a
  h_S2000x6 : 0 < S2000x6.numel
  shapeCasts_S2000x6_S2000x6 : S2000x6.ShapeCasts S2000x6
  inb_S6x2000x64_S1x2000x64_0_0_0 : ∀ a, (![0, 0, 0] : Fin 3 → Nat) a + S1x2000x64.size a ≤ S6x2000x64.size a
  h_S1x2000x64 : 0 < S1x2000x64.numel
  shapeCasts_S1x2000x64_S2000x64 : S1x2000x64.ShapeCasts S2000x64
  slices_S2000x6_o0_0_S2000x1 : S2000x6.Slices ![0, 0] S2000x1
  broadcasts_S2000x1_S2000x64 : S2000x1.Broadcasts S2000x64
  reduces_S2000x64_S2000 : S2000x64.Reduces [1] S2000
  shapeCasts_S2000_S2000x1 : S2000.ShapeCasts S2000x1
  inb_S2000x384_S2000x64_0_0 : ∀ a, (![0, 0] : Fin 2 → Nat) a + S2000x64.size a ≤ S2000x384.size a
  h_S2000x64 : 0 < S2000x64.numel
  shapeCasts_S2000x64_S2000x64 : S2000x64.ShapeCasts S2000x64
  packedbf16_S2000x384_S2000x64_0_0 : (Rect.unit (s := S2000x384) ![0, 0] S2000x64.size inb_S2000x384_S2000x64_0_0).PackedRows (EltTy.packing .bf16)
  inb_S6x2000x64_S1x2000x64_1_0_0 : ∀ a, (![1, 0, 0] : Fin 3 → Nat) a + S1x2000x64.size a ≤ S6x2000x64.size a
  slices_S2000x6_o0_1_S2000x1 : S2000x6.Slices ![0, 1] S2000x1
  inb_S2000x384_S2000x64_0_64 : ∀ a, (![0, 64] : Fin 2 → Nat) a + S2000x64.size a ≤ S2000x384.size a
  packedbf16_S2000x384_S2000x64_0_64 : (Rect.unit (s := S2000x384) ![0, 64] S2000x64.size inb_S2000x384_S2000x64_0_64).PackedRows (EltTy.packing .bf16)
  inb_S6x2000x64_S1x2000x64_2_0_0 : ∀ a, (![2, 0, 0] : Fin 3 → Nat) a + S1x2000x64.size a ≤ S6x2000x64.size a
  slices_S2000x6_o0_2_S2000x1 : S2000x6.Slices ![0, 2] S2000x1
  inb_S2000x384_S2000x64_0_128 : ∀ a, (![0, 128] : Fin 2 → Nat) a + S2000x64.size a ≤ S2000x384.size a
  packedbf16_S2000x384_S2000x64_0_128 : (Rect.unit (s := S2000x384) ![0, 128] S2000x64.size inb_S2000x384_S2000x64_0_128).PackedRows (EltTy.packing .bf16)
  inb_S6x2000x64_S1x2000x64_3_0_0 : ∀ a, (![3, 0, 0] : Fin 3 → Nat) a + S1x2000x64.size a ≤ S6x2000x64.size a
  slices_S2000x6_o0_3_S2000x1 : S2000x6.Slices ![0, 3] S2000x1
  inb_S2000x384_S2000x64_0_192 : ∀ a, (![0, 192] : Fin 2 → Nat) a + S2000x64.size a ≤ S2000x384.size a
  packedbf16_S2000x384_S2000x64_0_192 : (Rect.unit (s := S2000x384) ![0, 192] S2000x64.size inb_S2000x384_S2000x64_0_192).PackedRows (EltTy.packing .bf16)
  inb_S6x2000x64_S1x2000x64_4_0_0 : ∀ a, (![4, 0, 0] : Fin 3 → Nat) a + S1x2000x64.size a ≤ S6x2000x64.size a
  slices_S2000x6_o0_4_S2000x1 : S2000x6.Slices ![0, 4] S2000x1
  inb_S2000x384_S2000x64_0_256 : ∀ a, (![0, 256] : Fin 2 → Nat) a + S2000x64.size a ≤ S2000x384.size a
  packedbf16_S2000x384_S2000x64_0_256 : (Rect.unit (s := S2000x384) ![0, 256] S2000x64.size inb_S2000x384_S2000x64_0_256).PackedRows (EltTy.packing .bf16)
  inb_S6x2000x64_S1x2000x64_5_0_0 : ∀ a, (![5, 0, 0] : Fin 3 → Nat) a + S1x2000x64.size a ≤ S6x2000x64.size a
  slices_S2000x6_o0_5_S2000x1 : S2000x6.Slices ![0, 5] S2000x1
  inb_S2000x384_S2000x64_0_320 : ∀ a, (![0, 320] : Fin 2 → Nat) a + S2000x64.size a ≤ S2000x384.size a
  packedbf16_S2000x384_S2000x64_0_320 : (Rect.unit (s := S2000x384) ![0, 320] S2000x64.size inb_S2000x384_S2000x64_0_320).PackedRows (EltTy.packing .bf16)
  inb_S2000x384_S2000x384_0_0 : ∀ a, (![0, 0] : Fin 2 → Nat) a + S2000x384.size a ≤ S2000x384.size a
  h_S2000x384 : 0 < S2000x384.numel
  broadcasts_S1x64_S2000x64 : S1x64.Broadcasts S2000x64
  inb_S2000x64_S2000x64_0_0 : ∀ a, (![0, 0] : Fin 2 → Nat) a + S2000x64.size a ≤ S2000x64.size a
  shapeCasts_S16_S1x16 : S16.ShapeCasts S1x16
  inb_S384x16_S384x16_0_0 : ∀ a, (![0, 0] : Fin 2 → Nat) a + S384x16.size a ≤ S384x16.size a
  h_S384x16 : 0 < S384x16.numel
  shapeCasts_S384x16_S384x16 : S384x16.ShapeCasts S384x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S600000_S1600000x1_S1600000_n_0_0_1_wf : ScatterDims.WF S600000 S1600000x1 S1600000 [] [0] [0] 1
  gather_S100000x64_S1600000x1_S1600000x64_1_0_n_n_0_1_164_wf : GatherDims.WF S100000x64 S1600000x1 S1600000x64 [1] [0] [] [0] [] 1 ![1, 64]
  scatter_S600000x64_S1600000x1_S1600000x64_1_0_0_1_wf : ScatterDims.WF S600000x64 S1600000x1 S1600000x64 [1] [0] [0] 1
  dot_S2000x384_S384x64_S2000x64_1_0_0_1_n_n_wf : DotDims.WF S2000x384 S384x64 S2000x64 [1] [0] [0] [1] [] []
  dot_S2000x384_S384x16_S2000x16_1_0_0_1_n_n_wf : DotDims.WF S2000x384 S384x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x2000x64.size a ≤ S6x100000x64.size a
  hwx0_0 : ∀ i : grid0.Coords, EltTy.bits .f32 = 32 ∨ (Rect.block (s := S6x100000x64) S6x2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x6.size a ≤ S100000x6.size a
  hwx0_1 : ∀ i : grid0.Coords, EltTy.bits .f32 = 32 ∨ (Rect.block (s := S100000x6) S2000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x64.size a ≤ S384x64.size a
  hwx0_2 : ∀ i : grid0.Coords, EltTy.bits .bf16 = 32 ∨ (Rect.block (s := S384x64) S384x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6x2000x64.size a ≤ S6x100000x64.size a
  hwx1_0 : ∀ i : grid1.Coords, EltTy.bits .f32 = 32 ∨ (Rect.block (s := S6x100000x64) S6x2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x6.size a ≤ S100000x6.size a
  hwx1_1 : ∀ i : grid1.Coords, EltTy.bits .f32 = 32 ∨ (Rect.block (s := S100000x6) S2000x6.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x16.size a ≤ S384x16.size a
  hwx1_2 : ∀ i : grid1.Coords, EltTy.bits .bf16 = 32 ∨ (Rect.block (s := S384x16) S384x16.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x16.size a ≤ S100000x16.size a
  hwx1_4 : ∀ i : grid1.Coords, EltTy.bits .f32 = 32 ∨ (Rect.block (s := S100000x16) S2000x16.size (cc1_transform_4 i) (hinb1_4 i)).WholeWords (EltTy.packing .f32)

variable [Facts₀]

def scatter_S600000_S1600000x1_S1600000_n_0_0_1 : ScatterDims S600000 S1600000x1 S1600000 where
  updateWindowDims := []
  insertedWindowDims := [0]
  scatterDimsToOperandDims := [0]
  indexVectorDim := 1
  wf := scatter_S600000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S600000x64_S1600000x1_S1600000x64_1_0_0_1 : ScatterDims S600000x64 S1600000x1 S1600000x64 where
  updateWindowDims := [1]
  insertedWindowDims := [0]
  scatterDimsToOperandDims := [0]
  indexVectorDim := 1
  wf := scatter_S600000x64_S1600000x1_S1600000x64_1_0_0_1_wf
def dot_S2000x384_S384x64_S2000x64_1_0_0_1_n_n : DotDims S2000x384 S384x64 S2000x64 where
  lhsContracting := [1]
  rhsContracting := [0]
  lhsNonContracting := [0]
  rhsNonContracting := [1]
  lhsBatch := []
  rhsBatch := []
  wf := dot_S2000x384_S384x64_S2000x64_1_0_0_1_n_n_wf
def dot_S2000x384_S384x16_S2000x16_1_0_0_1_n_n : DotDims S2000x384 S384x16 S2000x16 where
  lhsContracting := [1]
  rhsContracting := [0]
  lhsNonContracting := [0]
  rhsNonContracting := [1]
  lhsBatch := []
  rhsBatch := []
  wf := dot_S2000x384_S384x16_S2000x16_1_0_0_1_n_n_wf

abbrev win0_0 : Pipeline.Window sig grid0 :=
  Pipeline.Window.ofSpec (Memref.whole main_v23) S6x2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S384x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v37) S6x2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x6.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S384x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S2000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S384x64 : Shape := ⟨2, ![384, 64]⟩
abbrev S64 : Shape := ⟨1, ![64]⟩
abbrev S384x16 : Shape := ⟨2, ![384, 16]⟩
abbrev S16 : Shape := ⟨1, ![16]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S600000x64 : Shape := ⟨2, ![600000, 64]⟩
abbrev S600000 : Shape := ⟨1, ![600000]⟩
abbrev S600000x1 : Shape := ⟨2, ![600000, 1]⟩
abbrev S6x100000x64 : Shape := ⟨3, ![6, 100000, 64]⟩
abbrev S100000x6x64 : Shape := ⟨3, ![100000, 6, 64]⟩
abbrev S100000x384 : Shape := ⟨2, ![100000, 384]⟩
abbrev S1x64 : Shape := ⟨2, ![1, 64]⟩
abbrev S100000x16 : Shape := ⟨2, ![100000, 16]⟩
abbrev S1x16 : Shape := ⟨2, ![1, 16]⟩

abbrev nBuf : Space → Nat
  | .hbm => 118
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .i32⟩
  | .hbm, ⟨3, _⟩ => ⟨S384x64, .f32⟩
  | .hbm, ⟨4, _⟩ => ⟨S64, .f32⟩
  | .hbm, ⟨5, _⟩ => ⟨S384x16, .f32⟩
  | .hbm, ⟨6, _⟩ => ⟨S16, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S_, .f32⟩
  | .hbm, ⟨25, _⟩ => ⟨S600000x64, .f32⟩
  | .hbm, ⟨26, _⟩ => ⟨S1600000x1, .i32⟩
  | .hbm, ⟨27, _⟩ => ⟨S600000x64, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S600000, .f32⟩
  | .hbm, ⟨32, _⟩ => ⟨S1600000x1, .i32⟩
  | .hbm, ⟨33, _⟩ => ⟨S600000, .f32⟩
  | .hbm, ⟨34, _⟩ => ⟨S_, .f32⟩
  | .hbm, ⟨35, _⟩ => ⟨S_, .f32⟩
  | .hbm, ⟨36, _⟩ => ⟨S600000, .f32⟩
  | .hbm, ⟨37, _⟩ => ⟨S600000, .f32⟩
  | .hbm, ⟨38, _⟩ => ⟨S600000x1, .f32⟩
  | .hbm, ⟨39, _⟩ => ⟨S600000x64, .f32⟩
  | .hbm, ⟨40, _⟩ => ⟨S600000x64, .f32⟩
  | .hbm, ⟨41, _⟩ => ⟨S600000x64, .f32⟩
  | .hbm, ⟨42, _⟩ => ⟨S_, .f32⟩
  | .hbm, ⟨43, _⟩ => ⟨S600000, .f32⟩
  | .hbm, ⟨44, _⟩ => ⟨S600000x1, .f32⟩
  | .hbm, ⟨45, _⟩ => ⟨S_, .f32⟩
  | .hbm, ⟨46, _⟩ => ⟨S600000x1, .f32⟩
  | .hbm, ⟨47, _⟩ => ⟨S600000x1, .f32⟩
  | .hbm, ⟨48, _⟩ => ⟨S_, .f32⟩
  | .hbm, ⟨49, _⟩ => ⟨S600000x1, .f32⟩
  | .hbm, ⟨50, _⟩ => ⟨S600000x1, .f32⟩
  | .hbm, ⟨51, _⟩ => ⟨S600000x64, .f32⟩
  | .hbm, ⟨52, _⟩ => ⟨S600000x64, .f32⟩
  | .hbm, ⟨53, _⟩ => ⟨S6x100000x64, .f32⟩
  | .hbm, ⟨54, _⟩ => ⟨S100000x6x64, .f32⟩
  | .hbm, ⟨55, _⟩ => ⟨S100000x384, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S_, .f32⟩
  | .hbm, ⟨80, _⟩ => ⟨S600000x64, .f32⟩
  | .hbm, ⟨81, _⟩ => ⟨S1600000x1, .i32⟩
  | .hbm, ⟨82, _⟩ => ⟨S600000x64, .f32⟩
  | .hbm, ⟨83, _⟩ => ⟨S_, .f32⟩
  | .hbm, ⟨84, _⟩ => ⟨S1600000, .f32⟩
  | .hbm, ⟨85, _⟩ => ⟨S_, .f32⟩
  | .hbm, ⟨86, _⟩ => ⟨S600000, .f32⟩
  | .hbm, ⟨87, _⟩ => ⟨S1600000x1, .i32⟩
  | .hbm, ⟨88, _⟩ => ⟨S600000, .f32⟩
  | .hbm, ⟨89, _⟩ => ⟨S_, .f32⟩
  | .hbm, ⟨90, _⟩ => ⟨S_, .f32⟩
  | .hbm, ⟨91, _⟩ => ⟨S600000, .f32⟩
  | .hbm, ⟨92, _⟩ => ⟨S600000, .f32⟩
  | .hbm, ⟨93, _⟩ => ⟨S600000x1, .f32⟩
  | .hbm, ⟨94, _⟩ => ⟨S600000x64, .f32⟩
  | .hbm, ⟨95, _⟩ => ⟨S600000x64, .f32⟩
  | .hbm, ⟨96, _⟩ => ⟨S600000x64, .f32⟩
  | .hbm, ⟨97, _⟩ => ⟨S_, .f32⟩
  | .hbm, ⟨98, _⟩ => ⟨S600000, .f32⟩
  | .hbm, ⟨99, _⟩ => ⟨S600000x1, .f32⟩
  | .hbm, ⟨100, _⟩ => ⟨S_, .f32⟩
  | .hbm, ⟨101, _⟩ => ⟨S600000x1, .f32⟩
  | .hbm, ⟨102, _⟩ => ⟨S600000x1, .f32⟩
  | .hbm, ⟨103, _⟩ => ⟨S_, .f32⟩
  | .hbm, ⟨104, _⟩ => ⟨S600000x1, .f32⟩
  | .hbm, ⟨105, _⟩ => ⟨S600000x1, .f32⟩
  | .hbm, ⟨106, _⟩ => ⟨S600000x64, .f32⟩
  | .hbm, ⟨107, _⟩ => ⟨S600000x64, .f32⟩
  | .hbm, ⟨108, _⟩ => ⟨S6x100000x64, .f32⟩
  | .hbm, ⟨109, _⟩ => ⟨S100000x6x64, .f32⟩
  | .hbm, ⟨110, _⟩ => ⟨S100000x384, .f32⟩
  | .hbm, ⟨111, _⟩ => ⟨S100000x16, .f32⟩
  | .hbm, ⟨112, _⟩ => ⟨S1x16, .f32⟩
  | .hbm, ⟨113, _⟩ => ⟨S100000x16, .f32⟩
  | .hbm, ⟨114, _⟩ => ⟨S100000x16, .f32⟩
  | .hbm, ⟨115, _⟩ => ⟨S_, .f32⟩
  | .hbm, ⟨116, _⟩ => ⟨S100000x16, .f32⟩
  | .hbm, ⟨117, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_call2_cst : Ref sig .tc := ⟨.hbm, 63, rfl⟩
abbrev main_call2_v0 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_14 : Ref sig .tc := ⟨.hbm, 89, rfl⟩
abbrev main_call3_v0 : Ref sig .tc := ⟨.hbm, 90, rfl⟩
abbrev main_call3_v1 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_15 : Ref sig .tc := ⟨.hbm, 97, rfl⟩
abbrev main_v65 : Ref sig .tc := ⟨.hbm, 98, rfl⟩
abbrev main_v66 : Ref sig .tc := ⟨.hbm, 99, rfl⟩
abbrev main_cst_16 : Ref sig .tc := ⟨.hbm, 100, rfl⟩
abbrev main_v67 : Ref sig .tc := ⟨.hbm, 101, rfl⟩
abbrev main_v68 : Ref sig .tc := ⟨.hbm, 102, rfl⟩
abbrev main_cst_17 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call4_cst : Ref sig .tc := ⟨.hbm, 115, rfl⟩
abbrev main_call4_v0 : Ref sig .tc := ⟨.hbm, 116, rfl⟩
abbrev main_v80 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S600000x64 : S_.BroadcastsInDim S600000x64 (![] : Fin 0 → Fin S600000x64.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x64_0_1 : S600000x1.BroadcastsInDim S600000x64 (![0, 1] : Fin 2 → Fin S600000x64.rank)
  reducesTo_S600000x64_S600000_d1 : S600000x64.ReducesTo [1] S600000
  h_S_ : 0 < S_.numel
  bcast_S_S600000x1 : S_.BroadcastsInDim S600000x1 (![] : Fin 0 → Fin S600000x1.rank)
  shapeCasts_S600000x64_S6x100000x64 : S600000x64.ShapeCasts S6x100000x64
  transposes_S6x100000x64_S100000x6x64_1_0_2 : S6x100000x64.Transposes [1, 0, 2] S100000x6x64
  shapeCasts_S100000x6x64_S100000x384 : S100000x6x64.ShapeCasts S100000x384
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  gather_S100000x64_S1600000x1_S1600000x64_1_0_n_n_0_1_164_wf : GatherDims.WF S100000x64 S1600000x1 S1600000x64 [1] [0] [] [0] [] 1 ![1, 64]
  scatter_S600000x64_S1600000x1_S1600000x64_1_0_0_1_wf : ScatterDims.WF S600000x64 S1600000x1 S1600000x64 [1] [0] [0] 1
  scatter_S600000_S1600000x1_S1600000_n_0_0_1_wf : ScatterDims.WF S600000 S1600000x1 S1600000 [] [0] [0] 1
  dot_S100000x384_S384x64_S100000x64_1_0_0_1_n_n_wf : DotDims.WF S100000x384 S384x64 S100000x64 [1] [0] [0] [1] [] []
  dot_S100000x384_S384x16_S100000x16_1_0_0_1_n_n_wf : DotDims.WF S100000x384 S384x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S600000x64_S1600000x1_S1600000x64_1_0_0_1 : ScatterDims S600000x64 S1600000x1 S1600000x64 where
  updateWindowDims := [1]
  insertedWindowDims := [0]
  scatterDimsToOperandDims := [0]
  indexVectorDim := 1
  wf := scatter_S600000x64_S1600000x1_S1600000x64_1_0_0_1_wf
def scatter_S600000_S1600000x1_S1600000_n_0_0_1 : ScatterDims S600000 S1600000x1 S1600000 where
  updateWindowDims := []
  insertedWindowDims := [0]
  scatterDimsToOperandDims := [0]
  indexVectorDim := 1
  wf := scatter_S600000_S1600000x1_S1600000_n_0_0_1_wf
def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf
def dot_S100000x384_S384x16_S100000x16_1_0_0_1_n_n : DotDims S100000x384 S384x16 S100000x16 where
  lhsContracting := [1]
  rhsContracting := [0]
  lhsNonContracting := [0]
  rhsNonContracting := [1]
  lhsBatch := []
  rhsBatch := []
  wf := dot_S100000x384_S384x16_S100000x16_1_0_0_1_n_n_wf

class Facts : Prop extends Facts₀ where

variable [Facts]
-- ==== Proof.HostSide.lean ====
/-
  The arrays the two pipelines are entered with, as functions of the launch arguments.

  The host operations before the first pipeline gather the source features of every edge, add them into the segment
  (time step, target node) they fall in, and count the edges of every segment; the operations between the pipelines do
  the same with the first layer's result in place of the input features. The reference performs the very same operations
  on the same arguments, so each entry array is spelt through the reference's own stage: the segment sums reshaped to
  [6, 100000, 64], the counts reshaped and transposed to [100000, 6], the weights with their format changed (the
  identity at the ideal instance) and the bias as a row.
-/
import proofs.«160740_j78606491451779_2_alg».proof.Proof.Gen.KernelIdeal.Frame
import proofs.«160740_j78606491451779_2_alg».proof.Proof.Gen.ReferenceIdeal.Read
import Idealize.ShloMosaic.Lib.StableHlo.Run
import Idealize.ShloMosaic.Lib.Tactic

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.Read (val_main_v1 val_main_v13 val_main_v16 val_main_v20)

variable (m : (ℓ : Loc nD τ sig) → Buf (Elt Ideal) ℓ) (ρ : Dev nD → PrngReg)

/-! ## Before the first pipeline -/

set_option maxHeartbeats 4000000 in
/-- The segment sums of the input features, as a stack of six [100000, 64] matrices. -/
theorem entry0_sums (c : Dev nD) :
    (V1 m ρ c main_v23 : S6x100000x64.Idx → EReal)
      = shapeCast S6x100000x64 (val_main_v16 (F := Ideal) (m ((c : Thread nD τ).loc main_arg0)) (m ((c : Thread nD τ).loc main_arg1)) (m ((c : Thread nD τ).loc main_arg2))) shapeCasts_S600000x64_S6x100000x64 := by
  show StableHlo.after hostOps0 (W0 m ρ c) (Proc.devRef .tc main_v23) = _
  after_results_simp
  all_goals rfl

set_option maxHeartbeats 4000000 in
/-- The segment counts, one row per node and one column per time step. -/
theorem entry0_counts (c : Dev nD) :
    (V1 m ρ c main_v12 : S100000x6.Idx → EReal)
      = transpose S100000x6 [1, 0]
          (shapeCast S6x100000 (val_main_v20 (F := Ideal) (m ((c : Thread nD τ).loc main_arg1)) (m ((c : Thread nD τ).loc main_arg2))) shapeCasts_S600000_S6x100000)
          transposes_S6x100000_S100000x6_1_0 := by
  show StableHlo.after hostOps0 (W0 m ρ c) (Proc.devRef .tc main_v12) = _
  after_results_simp
  all_goals rfl

set_option maxHeartbeats 4000000 in
/-- The first layer's weights. -/
theorem entry0_weights (c : Dev nD) :
    (V1 m ρ c main_v24 : S384x64.Idx → EReal)
      = (truncf .bf16 ((m ((c : Thread nD τ).loc main_arg3)) : FVec Ideal S384x64 .f32) bitsLt_bf16_f32 : FVec Ideal S384x64 .bf16) := by
  show StableHlo.after hostOps0 (W0 m ρ c) (Proc.devRef .tc main_v24) = _
  after_results_simp
  all_goals rfl

set_option maxHeartbeats 4000000 in
/-- The first layer's bias, as a row. -/
theorem entry0_bias (c : Dev nD) :
    (V1 m ρ c main_v25 : S1x64.Idx → EReal) = shapeCast S1x64 (m ((c : Thread nD τ).loc main_arg4)) shapeCasts_S64_S1x64 := by
  show StableHlo.after hostOps0 (W0 m ρ c) (Proc.devRef .tc main_v25) = _
  after_results_simp
  all_goals rfl

set_option maxHeartbeats 4000000 in
/-- The source node of every edge. -/
theorem w1_src (c : Dev nD) :
    (W1 m ρ c (Proc.devRef .tc main_v1) : S1600000.Idx → BitVec 32) = val_main_v1 (F := Ideal) (m ((c : Thread nD τ).loc main_arg1)) := by
  show StableHlo.after hostOps0 (W0 m ρ c) (Proc.devRef .tc main_v1) = _
  after_results_simp
  all_goals rfl

set_option maxHeartbeats 4000000 in
/-- The segment of every edge. -/
theorem w1_seg (c : Dev nD) :
    (W1 m ρ c (Proc.devRef .tc main_v6) : S1600000.Idx → BitVec 32) = val_main_v13 (F := Ideal) (m ((c : Thread nD τ).loc main_arg1)) (m ((c : Thread nD τ).loc main_arg2)) := by
  show StableHlo.after hostOps0 (W0 m ρ c) (Proc.devRef .tc main_v6) = _
  after_results_simp
  all_goals rfl

set_option maxHeartbeats 4000000 in
/-- The second layer's weights and bias are untouched by the first stretch. -/
theorem w1_arg5 (c : Dev nD) : W1 m ρ c (Proc.devRef .tc main_arg5) = (m ((c : Thread nD τ).loc main_arg5)) := by
  show StableHlo.after hostOps0 (W0 m ρ c) (Proc.devRef .tc main_arg5) = _
  after_results_simp

set_option maxHeartbeats 4000000 in
theorem w1_arg6 (c : Dev nD) : W1 m ρ c (Proc.devRef .tc main_arg6) = (m ((c : Thread nD τ).loc main_arg6)) := by
  show StableHlo.after hostOps0 (W0 m ρ c) (Proc.devRef .tc main_arg6) = _
  after_results_simp

/-! ## Between the pipelines -/

/-- The first pipeline leaves its input arrays as it found them. -/
theorem w2_counts (c : Dev nD) : W2 m ρ c (Proc.devRef .tc main_v12) = V1 m ρ c main_v12 :=
  (W2_arr m ρ c 1).trans ((dat0 (V1 m ρ) c).arrAt_in 1 rfl _)

set_option maxHeartbeats 4000000 in
/-- The segment sums of the first layer's result. -/
theorem entry1_sums (c : Dev nD) :
    (V3 m ρ c main_v37 : S6x100000x64.Idx → EReal)
      = shapeCast S6x100000x64
          (val_main_v16 (F := Ideal) (W2 m ρ c (Proc.devRef .tc main_v26)) (m ((c : Thread nD τ).loc main_arg1)) (m ((c : Thread nD τ).loc main_arg2)))
          shapeCasts_S600000x64_S6x100000x64 := by
  show StableHlo.after hostOps1 (W2 m ρ c) (Proc.devRef .tc main_v37) = _
  after_results_simp
  rw [W2_of_ne m ρ c main_v1 (by decide), W2_of_ne m ρ c main_v6 (by decide), w1_src, w1_seg]
  rfl

set_option maxHeartbeats 4000000 in
/-- The counts are the first pipeline's. -/
theorem entry1_counts (c : Dev nD) : V3 m ρ c main_v12 = V1 m ρ c main_v12 := by
  show StableHlo.after hostOps1 (W2 m ρ c) (Proc.devRef .tc main_v12) = _
  after_results_simp
  exact w2_counts m ρ c

set_option maxHeartbeats 4000000 in
/-- The second layer's weights. -/
theorem entry1_weights (c : Dev nD) :
    (V3 m ρ c main_v38 : S384x16.Idx → EReal)
      = (truncf .bf16 ((m ((c : Thread nD τ).loc main_arg5)) : FVec Ideal S384x16 .f32) bitsLt_bf16_f32 : FVec Ideal S384x16 .bf16) := by
  show StableHlo.after hostOps1 (W2 m ρ c) (Proc.devRef .tc main_v38) = _
  after_results_simp
  rw [W2_of_ne m ρ c main_arg5 (by decide), w1_arg5]
  all_goals rfl

set_option maxHeartbeats 4000000 in
/-- The second layer's bias, as a row. -/
theorem entry1_bias (c : Dev nD) :
    (V3 m ρ c main_v39 : S1x16.Idx → EReal) = shapeCast S1x16 (m ((c : Thread nD τ).loc main_arg6)) shapeCasts_S16_S1x16 := by
  show StableHlo.after hostOps1 (W2 m ρ c) (Proc.devRef .tc main_v39) = _
  after_results_simp
  rw [W2_of_ne m ρ c main_arg6 (by decide), w1_arg6]
  all_goals rfl

/-- The first layer's result is what the first pipeline's write-backs left. -/
theorem w2_result (c : Dev nD) : W2 m ρ c (Proc.devRef .tc main_v26) = (dat0 (V1 m ρ) c).arrAt 4 cfg0.N :=
  W2_arr m ρ c 4

end Cert.KernelIdeal.HostSide

end
-- ==== Proof.KernelRun.lean ====
/-
  The idealized kernel's run with its result named.

  The program is a stretch of host operations, the first layer's pipeline, a second stretch of host operations and the
  second layer's pipeline. Every weakly fair execution terminates without a fault; at the end each buffer the
  TensorCore can see holds the contents of the last segment boundary, so the result array holds what the second
  pipeline's write-backs left in it and the argument arrays are as launched.
-/
import proofs.«160740_j78606491451779_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result array at the last boundary's contents and the arguments as launched. -/
theorem run_main : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The result array is the second pipeline's fifth window's array: what its write-backs left. -/
theorem result_eq (c : Dev nD) :
    W4 m ρ c (Proc.devRef .tc main_v40) = (dat1 (V3 m ρ) c).arrAt 4 cfg1.N :=
  W4_arr m ρ c 4

end Cert.KernelIdeal.RunValue

end
-- ==== Proof.LayerSpec.lean ====
/-
  One layer of the network, as mathematics over the extended reals.

  A segment is one (time step, node) pair; its row `s` holds the sum of the source features over the edges that fall in
  the segment and `cn` their number. The segment's mean is `s f / max cn 1`; the hyperbolic normalisation divides the mean
  by `1 - c² · Σ_f mean_f²`. A node's six normalised rows, one per time step, are laid side by side (time-major) into one
  row of 384 entries; the layer's output at (node, q) is `max (Σ_k row_k · W (k, q) + b q) 0`.

  The three float constants are kept as the values of their words: both programs carry the same words, so they are never
  evaluated, except that the zero word is the real 0.
-/
import Idealize.ShloMosaic.Lib.ValueIdx
import Idealize.ShloMosaic.PureOps.Ideal
import Idealize.ShloMosaic.PureOps.Ideal.Laws

noncomputable section

namespace Cert.Hyp

open Idealize.ShloMosaic Idealize.ShloMosaic.ValueIdx

/-- The curvature squared, as the programs spell it (the single-precision number nearest 0.01). -/
abbrev cSq : EReal := Ideal.ofBits .f32 0x3C23D70A#32
/-- The word of 1.0. -/
abbrev one : EReal := Ideal.ofBits .f32 0x3F800000#32
/-- The word of 0.0. -/
abbrev zero : EReal := Ideal.ofBits .f32 0x00000000#32

/-- A segment's mean at feature `f`: its summed row over its edge count, the count floored at one. -/
def mean (s : Fin 64 → EReal) (cn : EReal) (f : Fin 64) : EReal := Ideal.div (s f) (max cn one)

/-- The squared length of a segment's mean. -/
def sqLen (s : Fin 64 → EReal) (cn : EReal) : EReal := ∑ f : Fin 64, mean s cn f * mean s cn f

/-- The normalised mean: the mean over `1 - c² · |mean|²`. -/
def hyp (s : Fin 64 → EReal) (cn : EReal) (f : Fin 64) : EReal :=
  Ideal.div (mean s cn f) (one - cSq * sqLen s cn)

/-- Position `k` of a node's concatenated row lies in time step `k / 64`, at feature `k % 64`. -/
def stepOf (k : Fin 384) : Fin 6 := ⟨k.val / 64, by have := k.isLt; omega⟩
def featOf (k : Fin 384) : Fin 64 := ⟨k.val % 64, by omega⟩

/-- A node's concatenated row: its six segments' normalised means, time-major. -/
def cat (s : Fin 6 → Fin 64 → EReal) (cn : Fin 6 → EReal) (k : Fin 384) : EReal :=
  hyp (s (stepOf k)) (cn (stepOf k)) (featOf k)

/-- The layer's output entry: the row against one column of the weights, plus the bias, floored at zero. -/
def out (row : Fin 384 → EReal) (w : Fin 384 → EReal) (b : EReal) : EReal :=
  max ((∑ k : Fin 384, row k * w k) + b) zero

/-- Flooring at zero twice is flooring once. -/
theorem max_zero_idem (x : EReal) : max (max x zero) zero = max x zero :=
  max_eq_left (le_max_right _ _)

/-- The zero word is the real zero. -/
theorem zero_eq : zero = 0 := Ideal.ofBits_zero_f32

end Cert.Hyp

end
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.LibRow.lean ====
/-
  A row is an array of shape [1, b]. Broadcasting it to [a, b] repeats the row a times, so the entry at (p, q) is the
  row's entry at (0, q). Independent of any program.
-/
import Idealize.ShloMosaic.Lib.ValueIdx
import Idealize.ShloMosaic.Lib.Pipeline.Value

noncomputable section

namespace Cert.Lib

open Idealize.ShloMosaic Idealize.ShloMosaic.ValueIdx

/-- A row [1, b] broadcast to [a, b] reads, at (p, q), the row's entry at (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.TileMath.lean ====
/-
  A tile of R nodes, read at an entry at the ideal instance. Independent of any program.

  For one time step the tile's operands are a slab [1, R, 64] of feature sums and column t of the [R, 6] array of edge
  counts. The mean divides each row of the slab by its count floored at one; the squared length sums the squares of a
  row's 64 means; the normalised mean divides by one minus c² times that. A change of float format is the identity on
  the extended reals. The layer's output multiplies the [R, 384] matrix of normalised means by the weights, adds the
  bias row and floors at zero.
-/
import Idealize.ShloMosaic.Lib.ValueIdx
import Idealize.ShloMosaic.Lib.Pipeline.Value
import Idealize.ShloMosaic.PureOps.Ideal.Laws
import proofs.«160740_j78606491451779_2_alg».proof.Proof.LayerSpec
import proofs.«160740_j78606491451779_2_alg».proof.Proof.LibColumn
import proofs.«160740_j78606491451779_2_alg».proof.Proof.LibRow
import proofs.«160740_j78606491451779_2_alg».proof.Proof.LibPlainDot

noncomputable section

namespace Cert.Tile

open Idealize.ShloMosaic Idealize.ShloMosaic.ValueIdx Cert.Hyp

variable {R : Nat}

/-- A slab [1, R, 64] seen as a matrix [R, 64]: entry (r, f) is the slab's (0, r, f). -/
theorem slab_cast_apply {α : Type} (v : (⟨3, ![1, R, 64]⟩ : Shape).Idx → α)
    (h : (⟨3, ![1, R, 64]⟩ : Shape).ShapeCasts ⟨2, ![R, 64]⟩) (r : Fin R) (f : Fin 64) :
    shapeCast ⟨2, ![R, 64]⟩ v h (ix2 r f) = v (ix3 (0 : Fin 1) r f) :=
  shapeCast_apply v h _ _ (by
    rw [Shape.rowMajor_val_three, Shape.rowMajor_val_two]
    show (0 * R + r.val) * 64 + f.val = r.val * 64 + f.val
    omega)

/-- Column t of the counts, as a column [R, 1]: entry (r, 0) is the counts' (r, t). -/
theorem col_slice_apply {α : Type} (x : (⟨2, ![R, 6]⟩ : Shape).Idx → α) (t : Nat) (ht : t < 6)
    (h : (⟨2, ![R, 6]⟩ : Shape).Slices ![0, t] ⟨2, ![R, 1]⟩) (r : Fin R) :
    extractStridedSlice ⟨2, ![R, 1]⟩ ![0, t] x h (ix2 r (0 : Fin 1)) = x (ix2 r (⟨t, ht⟩ : Fin 6)) :=
  extractStridedSlice_apply ![0, t] x h _ _ (fun a => by
    match a with
    | ⟨0, _⟩ => show r.val = 0 + r.val; omega
    | ⟨1, _⟩ => show t = t + 0; omega)

/-- The mean of time step t at (r, f). -/
theorem mean_apply (v : FVec Ideal ⟨3, ![1, R, 64]⟩ .f32) (x1 : FVec Ideal ⟨2, ![R, 6]⟩ .f32) (t : Nat) (ht : t < 6)
    (hc : (⟨3, ![1, R, 64]⟩ : Shape).ShapeCasts ⟨2, ![R, 64]⟩)
    (hs : (⟨2, ![R, 6]⟩ : Shape).Slices ![0, t] ⟨2, ![R, 1]⟩)
    (hb : (⟨2, ![R, 1]⟩ : Shape).Broadcasts ⟨2, ![R, 64]⟩) (r : Fin R) (f : Fin 64) :
    divf (shapeCast ⟨2, ![R, 64]⟩ v hc)
        (broadcastTo ⟨2, ![R, 64]⟩
          (maximumf (extractStridedSlice ⟨2, ![R, 1]⟩ ![0, t] x1 hs)
            (broadcast ⟨2, ![R, 1]⟩ (Scalar.ofBits (F := Ideal) .f32 0x3F800000#32))) hb) (ix2 r f)
      = mean (fun f' => v (ix3 (0 : Fin 1) r f')) (x1 (ix2 r (⟨t, ht⟩ : Fin 6))) f := by
  rw [divf_apply, Cert.Lib.broadcastTo_a1_ab_apply, slab_cast_apply, maximumf_apply, broadcast_apply,
    col_slice_apply x1 t ht]
  rfl

/-- A row's squared length: the lane sum of the squares of a matrix whose row r holds the means. -/
theorem sq_apply (M : FVec Ideal ⟨2, ![R, 64]⟩ .f32) (s : Fin 64 → EReal) (cn : EReal) (r : Fin R)
    (hM : ∀ f, M (ix2 r f) = mean s cn f)
    (hred : (⟨2, ![R, 64]⟩ : Shape).Reduces [1] ⟨1, ![R]⟩) (hφ : FKind.Formats .f32)
    (hacc : (0x00000000#32 : BitVec FTy.f32.bits) = FKind.add.neutral .f32 hφ)
    (hc : (⟨1, ![R]⟩ : Shape).ShapeCasts ⟨2, ![R, 1]⟩) :
    shapeCast ⟨2, ![R, 1]⟩ (multiReduction .add [1] ⟨1, ![R]⟩ (mulf M M) 0x00000000#32 hred hφ hacc) hc
        (ix2 r (0 : Fin 1)) = sqLen s cn := by
  rw [Cert.Lib.shapeCast_a_a1_apply]
  refine (Ideal.multiReduction_add_single (mulf M M) 0x00000000#32 hred hφ hacc (ix1 r)).trans ?_
  show ∑ k : Fin 64, (mulf M M) (hred.lift (ix1 r) k) = sqLen s cn
  unfold sqLen
  refine Finset.sum_congr rfl fun k _ => ?_
  have e : hred.lift (ix1 r) k = ix2 r k := funext fun a => Fin.ext (by
    match a with
    | ⟨0, _⟩ => rfl
    | ⟨1, _⟩ => rfl)
  rw [e]
  show M (ix2 r k) * M (ix2 r k) = _
  rw [hM]

/-- The normalised mean at (r, f), over any matrix M whose row r holds the means. -/
theorem hyp_apply (M : FVec Ideal ⟨2, ![R, 64]⟩ .f32) (s : Fin 64 → EReal) (cn : EReal) (r : Fin R)
    (hM : ∀ f, M (ix2 r f) = mean s cn f)
    (hred : (⟨2, ![R, 64]⟩ : Shape).Reduces [1] ⟨1, ![R]⟩) (hφ : FKind.Formats .f32)
    (hacc : (0x00000000#32 : BitVec FTy.f32.bits) = FKind.add.neutral .f32 hφ)
    (hc : (⟨1, ![R]⟩ : Shape).ShapeCasts ⟨2, ![R, 1]⟩)
    (hb : (⟨2, ![R, 1]⟩ : Shape).Broadcasts ⟨2, ![R, 64]⟩) (hbits : FTy.bf16.bits < FTy.f32.bits) (f : Fin 64) :
    (truncf .bf16
        (divf M
          (broadcastTo ⟨2, ![R, 64]⟩
            (subf (broadcast ⟨2, ![R, 1]⟩ (Scalar.ofBits (F := Ideal) .f32 0x3F800000#32))
              (mulf (broadcast ⟨2, ![R, 1]⟩ (Scalar.ofBits (F := Ideal) .f32 0x3C23D70A#32))
                (shapeCast ⟨2, ![R, 1]⟩
                  (multiReduction .add [1] ⟨1, ![R]⟩ (mulf M M) 0x00000000#32 hred hφ hacc) hc))) hb))
        hbits : FVec Ideal ⟨2, ![R, 64]⟩ .bf16) (ix2 r f)
      = hyp s cn f := by
  rw [truncf_apply, divf_apply, Cert.Lib.broadcastTo_a1_ab_apply, subf_apply, mulf_apply, broadcast_apply,
    broadcast_apply, sq_apply M s cn r hM, hM f]
  rfl

/-- The layer's output at (r, q): the row of normalised means against column q of the weights, plus the bias, floored. -/
theorem out_apply {N : Nat} (H : FVec Ideal ⟨2, ![R, 384]⟩ .bf16) (w : FVec Ideal ⟨2, ![384, N]⟩ .bf16)
    (b : FVec Ideal ⟨2, ![1, N]⟩ .f32)
    (wf : DotDims.WF ⟨2, ![R, 384]⟩ ⟨2, ![384, N]⟩ ⟨2, ![R, N]⟩ [1] [0] [0] [1] [] [])
    (hb : (⟨2, ![1, N]⟩ : Shape).Broadcasts ⟨2, ![R, N]⟩) (r : Fin R) (q : Fin N) :
    maximumf
        (addf
          (matmul (Cert.Lib.plainDot R 384 N wf) none H w (constant (F := Ideal) ⟨2, ![R, N]⟩ .f32 0x00000000#32))
          (broadcastTo ⟨2, ![R, N]⟩ b hb))
        (broadcast ⟨2, ![R, N]⟩ (Scalar.ofBits (F := Ideal) .f32 0x00000000#32)) (ix2 r q)
      = out (fun k => H (ix2 r k)) (fun k => w (ix2 k q)) (b (ix2 (0 : Fin 1) q)) := by
  rw [maximumf_apply, addf_apply, Cert.Lib.broadcastTo_1b_ab_apply, broadcast_apply]
  refine congrArg (fun z => max (z + b (ix2 (0 : Fin 1) q)) _) ?_
  exact Cert.Lib.matmul_zero_apply wf none H w r q

end Cert.Tile

end
-- ==== Proof.LibRowStore.lean ====
/-
  A rank-two block [m, n] written and read one row [1, n] at a time, and a rank-three block [B, m, n] read one slab
  [1, m, n] at a time. Independent of any program.

  Row k of the block is the unit-stride rectangle at offset (k, 0) of extent (1, n): its local index (0, q) sits at the
  block's index (k, q). So, of a list of stores (newest first), a store of row k decides the contents at (k, q) — its
  payload at (0, q) — and leaves every other row to the older stores; a load of row k reads the contents at (k, q);
  and a load of row k, after a store that filled the whole block, reads that fill's row k whatever was stored before.
-/
import Idealize.ShloMosaic.Lib.Pipeline.Value
import Idealize.ShloMosaic.Lib.Pipeline.FrameBody
import Idealize.ShloMosaic.Lib.ValueIdx

noncomputable section

namespace Cert.Lib

open Idealize.ShloMosaic Idealize.ShloMosaic.ValueIdx

variable {m n : Nat} {Val : EltTy → Type} {e : EltTy}

/-- Row k's local index (0, q) is the block's index (k, q). -/
theorem row_idx (k : Nat) (hk : k < m)
    (inb : ∀ a, (![k, 0] : Fin 2 → Nat) a + (⟨2, ![1, n]⟩ : Shape).size a ≤ (⟨2, ![m, n]⟩ : Shape).size a) (q : Fin n) :
    (Rect.unit (s := (⟨2, ![m, n]⟩ : Shape)) ![k, 0] (⟨2, ![1, n]⟩ : Shape).size inb).idx (ix2 (0 : Fin 1) q)
      = ix2 (⟨k, hk⟩ : Fin m) q :=
  funext fun a => Fin.ext (by
    match a with
    | ⟨0, _⟩ => show k + 1 * 0 = k; omega
    | ⟨1, _⟩ => show 0 + 1 * q.val = q.val; omega)

/-- A load of row k reads, at (0, q), the contents at (k, q). -/
theorem ld_row (X : (⟨2, ![m, n]⟩ : Shape).Idx → Val e) (k : Nat) (hk : k < m)
    (inb : ∀ a, (![k, 0] : Fin 2 → Nat) a + (⟨2, ![1, n]⟩ : Shape).size a ≤ (⟨2, ![m, n]⟩ : Shape).size a) (q : Fin n) :
    View.ld X (Rect.unit (s := (⟨2, ![m, n]⟩ : Shape)) ![k, 0] (⟨2, ![1, n]⟩ : Shape).size inb) (ix2 (0 : Fin 1) q)
      = X (ix2 (⟨k, hk⟩ : Fin m) q) :=
  congrArg X (row_idx k hk inb q)

/-- A load of slab b of a [B, m, n] block reads, at (0, p, d), the contents at (b, p, d). -/
theorem ld_slab {B : Nat} (X : (⟨3, ![B, m, n]⟩ : Shape).Idx → Val e) (b : Nat) (hb : b < B)
    (inb : ∀ a, (![b, 0, 0] : Fin 3 → Nat) a + (⟨3, ![1, m, n]⟩ : Shape).size a ≤ (⟨3, ![B, m, n]⟩ : Shape).size a)
    (p : Fin m) (d : Fin n) :
    View.ld X (Rect.unit (s := (⟨3, ![B, m, n]⟩ : Shape)) ![b, 0, 0] (⟨3, ![1, m, n]⟩ : Shape).size inb)
        (ix3 (0 : Fin 1) p d)
      = X (ix3 (⟨b, hb⟩ : Fin B) p d) :=
  congrArg X (funext fun a => Fin.ext (by
    match a with
    | ⟨0, _⟩ => show b + 1 * 0 = b; omega
    | ⟨1, _⟩ => show 0 + 1 * p.val = p.val; omega
    | ⟨2, _⟩ => show 0 + 1 * d.val = d.val; omega))

variable [∀ e, Nonempty (Val e)]

/-- When the newest store is row k, the contents at (k, q) are its payload at (0, q). -/
theorem canon_row_hit (k : Nat) (hk : k < m)
    (inb : ∀ a, (![k, 0] : Fin 2 → Nat) a + (⟨2, ![1, n]⟩ : Shape).size a ≤ (⟨2, ![m, n]⟩ : Shape).size a)
    (w : (⟨2, ![1, n]⟩ : Shape).Idx → Val e) (L : List (View.Piece Val (⟨2, ![m, n]⟩ : Shape) e)) (q : Fin n) :
    View.canon ((⟨Rect.unit (s := (⟨2, ![m, n]⟩ : Shape)) ![k, 0] (⟨2, ![1, n]⟩ : Shape).size inb, w⟩ :
        View.Piece Val (⟨2, ![m, n]⟩ : Shape) e) :: L) (ix2 (⟨k, hk⟩ : Fin m) q)
      = w (ix2 (0 : Fin 1) q) :=
  (congrArg (View.canon _) (row_idx k hk inb q).symm).trans
    (View.canon_cons_emb (Rect.unit (s := (⟨2, ![m, n]⟩ : Shape)) ![k, 0] (⟨2, ![1, n]⟩ : Shape).size inb) w L
      (ix2 (0 : Fin 1) q))

/-- When the newest store is row k, the contents at another row are the older stores'. -/
theorem canon_row_miss (k : Nat)
    (inb : ∀ a, (![k, 0] : Fin 2 → Nat) a + (⟨2, ![1, n]⟩ : Shape).size a ≤ (⟨2, ![m, n]⟩ : Shape).size a)
    (w : (⟨2, ![1, n]⟩ : Shape).Idx → Val e) (L : List (View.Piece Val (⟨2, ![m, n]⟩ : Shape) e))
    (b : Fin m) (hb : b.val ≠ k) (q : Fin n) :
    View.canon ((⟨Rect.unit (s := (⟨2, ![m, n]⟩ : Shape)) ![k, 0] (⟨2, ![1, n]⟩ : Shape).size inb, w⟩ :
        View.Piece Val (⟨2, ![m, n]⟩ : Shape) e) :: L) (ix2 b q)
      = View.canon L (ix2 b q) :=
  View.canon_cons_of_not_mem _ L (fun hm => by
    have hm' : ix2 b q ∈ (Rect.unit (s := (⟨2, ![m, n]⟩ : Shape)) ![k, 0] (⟨2, ![1, n]⟩ : Shape).size inb).set := hm
    have h0 : k ≤ b.val ∧ b.val < k + 1 := (Rect.mem_set_unit.mp hm') (0 : Fin 2)
    omega)

/-- A load of row k, when the newest store filled the whole block with P, reads P's row k. -/
theorem readCov_row_of_fill {sig : RefSig} {κ : Kind} {sp : Space} (v : View sig κ sp (⟨2, ![m, n]⟩ : Shape) e)
    (P : (⟨2, ![m, n]⟩ : Shape).Idx → Val e) (L : List (View.Piece Val (⟨2, ![m, n]⟩ : Shape) e))
    (inbP : ∀ a, (![0, 0] : Fin 2 → Nat) a + (⟨2, ![m, n]⟩ : Shape).size a ≤ (⟨2, ![m, n]⟩ : Shape).size a)
    (k : Nat)
    (inb : ∀ a, (![k, 0] : Fin 2 → Nat) a + (⟨2, ![1, n]⟩ : Shape).size a ≤ (⟨2, ![m, n]⟩ : Shape).size a) :
    v.readCov ((⟨Rect.unit (s := (⟨2, ![m, n]⟩ : Shape)) ![0, 0] (⟨2, ![m, n]⟩ : Shape).size inbP, P⟩ :
        View.Piece Val (⟨2, ![m, n]⟩ : Shape) e) :: L)
        (Rect.unit (s := (⟨2, ![m, n]⟩ : Shape)) ![k, 0] (⟨2, ![1, n]⟩ : Shape).size inb).toLoadRect
      = View.ld P (Rect.unit (s := (⟨2, ![m, n]⟩ : Shape)) ![k, 0] (⟨2, ![1, n]⟩ : Shape).size inb) := by
  have hz : (![0, 0] : Fin 2 → Nat) = fun _ => 0 := funext fun a => by fin_cases a <;> rfl
  rw [View.readCov_eq_canon_ld _ _ _ (fun y => ⟨_, List.mem_cons_self, View.mem_set_unit_zero hz inbP y⟩),
    View.canon_cons_unit_zero hz inbP P L]

end Cert.Lib

end
-- ==== Proof.Tile0.lean ====
/-
  One grid point of layer 1's kernel: what the body leaves in the output block, as a function of the point's blocks.

  The body computes, for each of the six time steps, the normalised means of the tile's 2000 nodes from slab t of the
  block of feature sums and column t of the block of edge counts, and stores them as columns 64 t … 64 t + 63 of a
  [2000, 384] scratch; it then reads the scratch whole, multiplies it by the weights, adds the bias row, floors at zero
  and stores the [2000, 64] result. Read at the ideal instance, entry (r, q) of the result is the layer's output for the
  tile's node r: its six segments' normalised means, time-major, against column q of the weights.
-/
import proofs.«160740_j78606491451779_2_alg».proof.Proof.Gen.KernelIdeal.Frame
import Idealize.ShloMosaic.Lib.Pipeline.Value
import Idealize.ShloMosaic.Lib.Tactic
import proofs.«160740_j78606491451779_2_alg».proof.Proof.TileMath
import proofs.«160740_j78606491451779_2_alg».proof.Proof.LibRowStore

set_option maxRecDepth 16384

noncomputable section

namespace Cert.KernelIdeal.Tile0

open Cert.KernelIdeal Cert.KernelIdeal.Gen
open Idealize.ShloMosaic Idealize.ShloMosaic.TcCoe Idealize.SL.Sem Idealize.ShloMosaic.ValueIdx Cert.Hyp

theorem hz2 : (![0, 0] : Fin 2 → Nat) = fun _ => 0 := funext fun a => by fin_cases a <;> rfl

section AnyInstance

variable {F : FTy → Type} [FloatOps F]

/-- The means of one time step: the slab over the counts' column, the counts floored at one. -/
def meanTerm (off : Fin 2 → Nat) (hs : S2000x6.Slices off S2000x1) (cn : FVec F S2000x6 .f32)
    (v : Vec F S1x2000x64 .f32) : FVec F S2000x64 .f32 :=
  divf (shapeCast S2000x64 v shapeCasts_S1x2000x64_S2000x64)
    (broadcastTo S2000x64
      (maximumf (extractStridedSlice S2000x1 off cn hs) (broadcast S2000x1 (Scalar.ofBits .f32 0x3F800000#32)))
      broadcasts_S2000x1_S2000x64)

/-- The normalised means of one time step, in the scratch's format. -/
def stepTerm (off : Fin 2 → Nat) (hs : S2000x6.Slices off S2000x1) (cn : FVec F S2000x6 .f32)
    (v : Vec F S1x2000x64 .f32) : FVec F S2000x64 .bf16 :=
  shapeCast S2000x64
    (truncf .bf16
      (divf (meanTerm off hs cn v)
        (broadcastTo S2000x64
          (subf (broadcast S2000x1 (Scalar.ofBits .f32 0x3F800000#32))
            (mulf (broadcast S2000x1 (Scalar.ofBits .f32 0x3C23D70A#32))
              (shapeCast S2000x1
                (multiReduction .add [1] S2000 (mulf (meanTerm off hs cn v) (meanTerm off hs cn v)) 0x00000000#32
                  reduces_S2000x64_S2000 (.inl rfl) rfl)
                shapeCasts_S2000_S2000x1)))
          broadcasts_S2000x1_S2000x64))
      bitsLt_bf16_f32)
    shapeCasts_S2000x64_S2000x64

/-- The scratch after the six stores, as its pieces, newest first. -/
def hcat (x0 : Vec F S6x2000x64 .f32) (x1 : Vec F S2000x6 .f32) : List (View.Piece (Elt F) S2000x384 .bf16) :=
  [⟨Rect.unit ![0, 320] ![2000, 64] inb_S2000x384_S2000x64_0_320,
      stepTerm ![0, 5] slices_S2000x6_o0_5_S2000x1 (k0_pay5 x1)
        (View.ld x0 (Rect.unit ![5, 0, 0] ![1, 2000, 64] inb_S6x2000x64_S1x2000x64_5_0_0))⟩,
    ⟨Rect.unit ![0, 256] ![2000, 64] inb_S2000x384_S2000x64_0_256,
      stepTerm ![0, 4] slices_S2000x6_o0_4_S2000x1 (k0_pay5 x1)
        (View.ld x0 (Rect.unit ![4, 0, 0] ![1, 2000, 64] inb_S6x2000x64_S1x2000x64_4_0_0))⟩,
    ⟨Rect.unit ![0, 192] ![2000, 64] inb_S2000x384_S2000x64_0_192,
      stepTerm ![0, 3] slices_S2000x6_o0_3_S2000x1 (k0_pay5 x1)
        (View.ld x0 (Rect.unit ![3, 0, 0] ![1, 2000, 64] inb_S6x2000x64_S1x2000x64_3_0_0))⟩,
    ⟨Rect.unit ![0, 128] ![2000, 64] inb_S2000x384_S2000x64_0_128,
      stepTerm ![0, 2] slices_S2000x6_o0_2_S2000x1 (k0_pay5 x1)
        (View.ld x0 (Rect.unit ![2, 0, 0] ![1, 2000, 64] inb_S6x2000x64_S1x2000x64_2_0_0))⟩,
    ⟨Rect.unit ![0, 64] ![2000, 64] inb_S2000x384_S2000x64_0_64,
      stepTerm ![0, 1] slices_S2000x6_o0_1_S2000x1 (k0_pay5 x1)
        (View.ld x0 (Rect.unit ![1, 0, 0] ![1, 2000, 64] inb_S6x2000x64_S1x2000x64_1_0_0))⟩,
    ⟨Rect.unit ![0, 0] ![2000, 64] inb_S2000x384_S2000x64_0_0,
      stepTerm ![0, 0] slices_S2000x6_o0_0_S2000x1 (k0_pay5 x1)
        (View.ld x0 (Rect.unit ![0, 0, 0] ![1, 2000, 64] inb_S6x2000x64_S1x2000x64_0_0_0))⟩]

/-- What the body stores in the output block. -/
def tile (x0 : Vec F S6x2000x64 .f32) (x1 : Vec F S2000x6 .f32) (x2 : Vec F S384x64 .bf16) (x3 : Vec F S1x64 .f32) :
    Vec F S2000x64 .f32 :=
  k0_pay2 (k0_pay3 x2) (k0_pay4 x3) (View.canon (hcat x0 x1))

/-- The run's found piece is that term: one covering store, its loads reading the whole input buffers, slab t of the
    sums, and the scratch after its six stores. -/
theorem out_eq (c : Dev nD) (i : grid0.Coords) (arg1 : Memref sig .tc .vmem S6x2000x64 .f32) (harg1 : arg1.IsWhole) (arg2 : Memref sig .tc .vmem S2000x6 .f32) (harg2 : arg2.IsWhole) (arg3 : Memref sig .tc .vmem S384x64 .bf16) (harg3 : arg3.IsWhole) (arg4 : Memref sig .tc .vmem S1x64 .f32) (harg4 : arg4.IsWhole) (arg5 : Memref sig .tc .vmem S2000x64 .f32) (harg5 : arg5.IsWhole) (arg6 : Memref sig .tc .vmem S2000x384 .bf16) (harg6 : arg6.IsWhole)
    (x0 : Vec F S6x2000x64 .f32) (x1 : Vec F S2000x6 .f32) (x2 : Vec F S384x64 .bf16) (x3 : Vec F S1x64 .f32) :
    out0_A_4 c i arg1 harg1 arg2 harg2 arg3 harg3 arg4 harg4 arg5 harg5 arg6 harg6 x0 x1 x2 x3 = tile x0 x1 x2 x3 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  rw [View.canon_unit_zero hz2]
  simp only [View.readAt_eq_ld, harg1.read_unread, harg2.read_unread, harg3.read_unread, harg4.read_unread,
    View.ld_unit_zero (S := S384x64) hz2, View.ld_unit_zero (S := S1x64) hz2, View.ld_unit_zero (S := S2000x6) hz2]
  have key : arg6.view.readCov (hcat x0 x1) (Rect.unit ![0, 0] ![2000, 384] inb_S2000x384_S2000x384_0_0).toLoadRect
      = View.canon (hcat x0 x1) := by
    rw [View.readCov_eq_canon']
    exact View.ld_unit_zero (S := S2000x384) hz2 inb_S2000x384_S2000x384_0_0 (View.canon (hcat x0 x1))
  exact congrArg (k0_pay2 (k0_pay3 x2) (k0_pay4 x3)) key

end AnyInstance

/-! ## At the ideal instance -/

/-- One time step's normalised mean at (r, f). -/
theorem stepTerm_apply (t : Nat) (ht : t < 6) (hs : S2000x6.Slices ![0, t] S2000x1) (cn : FVec Ideal S2000x6 .f32)
    (v : Vec Ideal S1x2000x64 .f32) (r : Fin 2000) (f : Fin 64) :
    stepTerm (F := Ideal) ![0, t] hs cn v (ix2 r f)
      = hyp (fun f' => v (ix3 (0 : Fin 1) r f')) (cn (ix2 r (⟨t, ht⟩ : Fin 6))) f := by
  unfold stepTerm
  refine (congrFun (shapeCast_self _ shapeCasts_S2000x64_S2000x64) (ix2 r f)).trans ?_
  exact Cert.Tile.hyp_apply (R := 2000) (meanTerm ![0, t] hs cn v) _ _ r
    (fun f => Cert.Tile.mean_apply (R := 2000) v cn t ht shapeCasts_S1x2000x64_S2000x64 hs broadcasts_S2000x1_S2000x64 r f)
    reduces_S2000x64_S2000 (.inl rfl) rfl shapeCasts_S2000_S2000x1 broadcasts_S2000x1_S2000x64 bitsLt_bf16_f32 f

/-- Node r's concatenated row, from the point's blocks. -/
def catAt (x0 : Vec Ideal S6x2000x64 .f32) (x1 : Vec Ideal S2000x6 .f32) (r : Fin 2000) (k : Fin 384) : EReal :=
  cat (fun t f => x0 (ix3 t r f)) (fun t => x1 (ix2 r t)) k

theorem catAt_mk (x0 : Vec Ideal S6x2000x64 .f32) (x1 : Vec Ideal S2000x6 .f32) (a b : Nat) (ha : a < 2000) (hb : b < 384)
    (r : Fin 2000) (k : Fin 384) (h0 : a = r.val) (h1 : b = k.val) :
    catAt x0 x1 ⟨a, ha⟩ ⟨b, hb⟩ = catAt x0 x1 r k := by
  subst h0 h1; rfl

/-- Position 64 t + f of the concatenated row is time step t's normalised mean at feature f. -/
theorem catAt_block (x0 : Vec Ideal S6x2000x64 .f32) (x1 : Vec Ideal S2000x6 .f32) (t : Nat) (ht : t < 6) (r : Fin 2000)
    (f : Fin 64) (h : 64 * t + f.val < 384) :
    catAt x0 x1 r ⟨64 * t + f.val, h⟩
      = hyp (fun f' => x0 (ix3 (⟨t, ht⟩ : Fin 6) r f')) (x1 (ix2 r (⟨t, ht⟩ : Fin 6))) f := by
  unfold catAt cat
  have e1 : stepOf ⟨64 * t + f.val, h⟩ = (⟨t, ht⟩ : Fin 6) := Fin.ext (by
    show (64 * t + f.val) / 64 = t
    have := f.isLt; omega)
  have e2 : featOf ⟨64 * t + f.val, h⟩ = f := Fin.ext (by
    show (64 * t + f.val) % 64 = f.val
    have := f.isLt; omega)
  rw [e1, e2]

/-- The scratch's contents as one function of the scratch index. -/
def Gcat (x0 : Vec Ideal S6x2000x64 .f32) (x1 : Vec Ideal S2000x6 .f32) (y : S2000x384.Idx) : EReal :=
  catAt x0 x1 ⟨(y 0).val, idx2_lt0 y⟩ ⟨(y 1).val, idx2_lt1 y⟩

/-- A piece stored at columns 64 t … holds, at its local (r, f), the scratch function at the embedded index. -/
theorem piece_eq (x0 : Vec Ideal S6x2000x64 .f32) (x1 : Vec Ideal S2000x6 .f32) (t : Nat) (ht : t < 6)
    (hs : S2000x6.Slices ![0, t] S2000x1) (o : Nat) (ho : o = 64 * t)
    (inb : ∀ a, (![0, o] : Fin 2 → Nat) a + (![2000, 64] : Fin 2 → Nat) a ≤ S2000x384.size a)
    (inbs : ∀ a, (![t, 0, 0] : Fin 3 → Nat) a + (![1, 2000, 64] : Fin 3 → Nat) a ≤ S6x2000x64.size a)
    (x : (⟨2, ![2000, 64]⟩ : Shape).Idx) :
    stepTerm (F := Ideal) ![0, t] hs (k0_pay5 x1) (View.ld x0 (Rect.unit ![t, 0, 0] ![1, 2000, 64] inbs)) x
      = Gcat x0 x1 ((Rect.unit (s := S2000x384) ![0, o] ![2000, 64] inb).emb x) := by
  subst ho
  obtain ⟨r, f, rfl⟩ : ∃ (r : Fin 2000) (f : Fin 64), x = ix2 r f := ⟨x 0, x 1, eq_ix2 x⟩
  rw [stepTerm_apply t ht]
  have hf := f.isLt
  have hr := r.isLt
  have hk : 64 * t + f.val < 384 := by omega
  have h0 : ((Rect.unit (s := S2000x384) ![0, 64 * t] ![2000, 64] inb).emb (ix2 r f) 0).val = r.val := by
    show 0 + 1 * r.val = r.val
    omega
  have h1 : ((Rect.unit (s := S2000x384) ![0, 64 * t] ![2000, 64] inb).emb (ix2 r f) 1).val
      = (⟨64 * t + f.val, hk⟩ : Fin 384).val := by
    show 64 * t + 1 * f.val = 64 * t + f.val
    omega
  unfold Gcat
  rw [catAt_mk x0 x1 _ _ _ _ r ⟨64 * t + f.val, hk⟩ h0 h1, catAt_block x0 x1 t ht r f]
  have e1 : k0_pay5 x1 (ix2 r (⟨t, ht⟩ : Fin 6)) = x1 (ix2 r (⟨t, ht⟩ : Fin 6)) :=
    congrFun (shapeCast_self x1 shapeCasts_S2000x6_S2000x6) _
  have e2 : ∀ f' : Fin 64, View.ld x0 (Rect.unit ![t, 0, 0] ![1, 2000, 64] inbs) (ix3 (0 : Fin 1) r f')
      = x0 (ix3 (⟨t, ht⟩ : Fin 6) r f') := fun f' => Cert.Lib.ld_slab x0 t ht inbs r f'
  rw [e1]
  simp only [e2]

/-- Every piece of the scratch agrees with the scratch function. -/
theorem hcat_pieces (x0 : Vec Ideal S6x2000x64 .f32) (x1 : Vec Ideal S2000x6 .f32) :
    ∀ p ∈ hcat (F := Ideal) x0 x1, ∀ x : p.1.shape.Idx, p.2 x = Gcat x0 x1 (p.1.emb x) := by
  intro p hp
  unfold hcat at hp
  simp only [List.mem_cons, List.mem_nil_iff, or_false] at hp
  rcases hp with rfl | rfl | rfl | rfl | rfl | rfl
  · exact fun x => piece_eq x0 x1 5 (by decide) slices_S2000x6_o0_5_S2000x1 320 rfl inb_S2000x384_S2000x64_0_320
      inb_S6x2000x64_S1x2000x64_5_0_0 x
  · exact fun x => piece_eq x0 x1 4 (by decide) slices_S2000x6_o0_4_S2000x1 256 rfl inb_S2000x384_S2000x64_0_256
      inb_S6x2000x64_S1x2000x64_4_0_0 x
  · exact fun x => piece_eq x0 x1 3 (by decide) slices_S2000x6_o0_3_S2000x1 192 rfl inb_S2000x384_S2000x64_0_192
      inb_S6x2000x64_S1x2000x64_3_0_0 x
  · exact fun x => piece_eq x0 x1 2 (by decide) slices_S2000x6_o0_2_S2000x1 128 rfl inb_S2000x384_S2000x64_0_128
      inb_S6x2000x64_S1x2000x64_2_0_0 x
  · exact fun x => piece_eq x0 x1 1 (by decide) slices_S2000x6_o0_1_S2000x1 64 rfl inb_S2000x384_S2000x64_0_64
      inb_S6x2000x64_S1x2000x64_1_0_0 x
  · exact fun x => piece_eq x0 x1 0 (by decide) slices_S2000x6_o0_0_S2000x1 0 rfl inb_S2000x384_S2000x64_0_0
      inb_S6x2000x64_S1x2000x64_0_0_0 x

/-- The six column blocks cover the scratch. -/
theorem hcat_cover (x0 : Vec Ideal S6x2000x64 .f32) (x1 : Vec Ideal S2000x6 .f32) (r : Fin 2000) (k : Fin 384) :
    ∃ p ∈ hcat (F := Ideal) x0 x1, ix2 r k ∈ p.1.set := by
  have hr := r.isLt
  have hk := k.isLt
  have mem : ∀ (o : Nat) (inb : ∀ a, (![0, o] : Fin 2 → Nat) a + (![2000, 64] : Fin 2 → Nat) a ≤ S2000x384.size a),
      o ≤ k.val → k.val < o + 64 → ix2 r k ∈ (Rect.unit (s := S2000x384) ![0, o] ![2000, 64] inb).set :=
    fun o inb h1 h2 => Rect.mem_set_unit.mpr fun a => by
      match a with
      | ⟨0, _⟩ => show 0 ≤ r.val ∧ r.val < 0 + 2000; omega
      | ⟨1, _⟩ => show o ≤ k.val ∧ k.val < o + 64; omega
  unfold hcat
  by_cases c5 : 320 ≤ k.val
  · exact ⟨_, List.mem_cons_self, mem 320 inb_S2000x384_S2000x64_0_320 c5 (by omega)⟩
  by_cases c4 : 256 ≤ k.val
  · exact ⟨_, List.mem_cons_of_mem _ List.mem_cons_self, mem 256 inb_S2000x384_S2000x64_0_256 c4 (by omega)⟩
  by_cases c3 : 192 ≤ k.val
  · exact ⟨_, List.mem_cons_of_mem _ (List.mem_cons_of_mem _ List.mem_cons_self), mem 192 inb_S2000x384_S2000x64_0_192 c3 (by omega)⟩
  by_cases c2 : 128 ≤ k.val
  · exact ⟨_, List.mem_cons_of_mem _ (List.mem_cons_of_mem _ (List.mem_cons_of_mem _ List.mem_cons_self)), mem 128 inb_S2000x384_S2000x64_0_128 c2 (by omega)⟩
  by_cases c1 : 64 ≤ k.val
  · exact ⟨_, List.mem_cons_of_mem _ (List.mem_cons_of_mem _ (List.mem_cons_of_mem _ (List.mem_cons_of_mem _ List.mem_cons_self))), mem 64 inb_S2000x384_S2000x64_0_64 c1 (by omega)⟩
  · exact ⟨_, List.mem_cons_of_mem _ (List.mem_cons_of_mem _ (List.mem_cons_of_mem _ (List.mem_cons_of_mem _ (List.mem_cons_of_mem _ List.mem_cons_self)))), mem 0 inb_S2000x384_S2000x64_0_0 (by omega) (by omega)⟩

/-- The scratch read at (r, k) is node r's concatenated row at k. -/
theorem hcat_apply (x0 : Vec Ideal S6x2000x64 .f32) (x1 : Vec Ideal S2000x6 .f32) (r : Fin 2000) (k : Fin 384) :
    View.canon (hcat (F := Ideal) x0 x1) (ix2 r k) = catAt x0 x1 r k :=
  View.canon_apply_of_pieces (Gcat x0 x1) (hcat x0 x1) (hcat_pieces x0 x1) (ix2 r k) (hcat_cover x0 x1 r k)

/-- THE TILE at (r, q): the layer's output for the tile's node r and output column q. -/
theorem tile_apply (x0 : Vec Ideal S6x2000x64 .f32) (x1 : Vec Ideal S2000x6 .f32) (x2 : Vec Ideal S384x64 .bf16)
    (x3 : Vec Ideal S1x64 .f32) (r : Fin 2000) (q : Fin 64) :
    tile (F := Ideal) x0 x1 x2 x3 (ix2 r q)
      = out (catAt x0 x1 r) (fun k => x2 (ix2 k q)) (x3 (ix2 (0 : Fin 1) q)) := by
  unfold tile k0_pay2 k0_pay3 k0_pay4
  refine (Cert.Tile.out_apply (R := 2000) (N := 64) (View.canon (hcat (F := Ideal) x0 x1))
    (shapeCast S384x64 x2 shapeCasts_S384x64_S384x64) (shapeCast S1x64 x3 shapeCasts_S1x64_S1x64)
    dot_S2000x384_S384x64_S2000x64_1_0_0_1_n_n.wf broadcasts_S1x64_S2000x64 r q).trans ?_
  rw [shapeCast_self, shapeCast_self]
  refine congrArg (fun row => out row (fun k => x2 (ix2 k q)) (x3 (ix2 (0 : Fin 1) q))) ?_
  exact funext fun k => hcat_apply x0 x1 r k

end Cert.KernelIdeal.Tile0

end
-- ==== Proof.Blocks0.lean ====
/-
  Region 0 of the idealized kernel, from blocks to the array.

  The grid has 50 points. Point t works on nodes 2000 t … 2000 t + 1999: it reads slab [6, 2000, 64] of the feature
  sums at node offset 2000 t, rows 2000 t … of the transposed counts [100000, 6], the whole weights and the whole bias
  row, and writes back rows 2000 t … of the result. Each written block is the matching block of ONE function of the
  four arrays (`layerOut`), and the 50 blocks tile the result, so after the run the result array is that function.
-/
import proofs.«160740_j78606491451779_2_alg».proof.Proof.Tile0
import proofs.«160740_j78606491451779_2_alg».proof.Proof.LayerSpec
import Idealize.ShloMosaic.Lib.Pipeline.Value
import Idealize.ShloMosaic.Lib.Tactic

set_option maxRecDepth 16384

noncomputable section

namespace Cert.KernelIdeal.Blocks0

open Cert.KernelIdeal Cert.KernelIdeal.Gen Cert.Hyp
open Idealize.ShloMosaic Idealize.ShloMosaic.TcCoe Idealize.SL.Sem Idealize.ShloMosaic.ValueIdx
open Idealize.ShloMosaic.Pipeline (Dat)

/-- The layer as ONE function of the four arrays, index by index: entry (n, q) is node n's six segments' normalised
    means, time-major, against column q of the weights, plus the bias, floored at zero. -/
def layerOut (sums : Vec Ideal S6x100000x64 .f32) (cntT : Vec Ideal S100000x6 .f32) (W : Vec Ideal S384x64 .bf16)
    (b : Vec Ideal S1x64 .f32) : Vec Ideal S100000x64 .f32 :=
  fun y => out (cat (fun t f => sums (ix3 t ⟨(y 0).val, idx2_lt0 y⟩ f)) (fun t => cntT (ix2 ⟨(y 0).val, idx2_lt0 y⟩ t)))
    (fun k => W (ix2 k ⟨(y 1).val, idx2_lt1 y⟩)) (b (ix2 (0 : Fin 1) ⟨(y 1).val, idx2_lt1 y⟩))

theorem layerOut_apply (sums : Vec Ideal S6x100000x64 .f32) (cntT : Vec Ideal S100000x6 .f32) (W : Vec Ideal S384x64 .bf16)
    (b : Vec Ideal S1x64 .f32) (n : Fin 100000) (q : Fin 64) :
    layerOut sums cntT W b (ix2 n q)
      = out (cat (fun t f => sums (ix3 t n f)) (fun t => cntT (ix2 n t))) (fun k => W (ix2 k q)) (b (ix2 (0 : Fin 1) q)) := rfl

variable (V : (c : Dev nD) → (b : Ref sig .tc) → Buf (Elt Ideal) ((c : Thread nD τ).loc b))

/-! ## Where each window's block sits, decided once over the grid -/

/-- At point t the sums' block is at node offset t, the counts' and the result's at row offset t, and the weights' and
    the bias's are the arrays themselves. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks, read at an index -/

/-- The sums' block at point t: node r of the block is node 2000 t + r of the array. -/
theorem sums_blk (c : Dev nD) (t : Fin cfg0.N) (y : S6x2000x64.Idx) (i : S6x100000x64.Idx)
    (a0 : (i 0).val = (y 0).val) (a1 : (i 1).val = t.val * 2000 + (y 1).val) (a2 : (i 2).val = (y 2).val) :
    (iblk0 V c 0 t : Vec Ideal S6x2000x64 .f32) y = (V c main_v23 : Vec Ideal S6x100000x64 .f32) i := by
  obtain ⟨e0, e1, e2, -⟩ := idx_facts t
  unfold iblk0
  rw [View.read_apply]
  show V c main_v23 _ = V c main_v23 _
  congr 1
  funext a
  apply Fin.ext
  match a with
  | ⟨0, _⟩ => show win0_0.index t (0 : Fin 3) * 6 + 1 * (y 0).val = (i 0).val; rw [e0, a0]; omega
  | ⟨1, _⟩ => show win0_0.index t (1 : Fin 3) * 2000 + 1 * (y 1).val = (i 1).val; rw [e1, a1]; omega
  | ⟨2, _⟩ => show win0_0.index t (2 : Fin 3) * 64 + 1 * (y 2).val = (i 2).val; rw [e2, a2]; omega

/-- The counts' block at point t: row r of the block is row 2000 t + r of the array. -/
theorem cnt_blk (c : Dev nD) (t : Fin cfg0.N) (y : S2000x6.Idx) (i : S100000x6.Idx)
    (a0 : (i 0).val = t.val * 2000 + (y 0).val) (a1 : (i 1).val = (y 1).val) :
    (iblk0 V c 1 t : Vec Ideal S2000x6 .f32) y = (V c main_v12 : Vec Ideal S100000x6 .f32) i := by
  obtain ⟨-, -, -, e0, e1, -⟩ := idx_facts t
  unfold iblk0
  rw [View.read_apply]
  show V c main_v12 _ = V c main_v12 _
  congr 1
  funext a
  apply Fin.ext
  match a with
  | ⟨0, _⟩ => show win0_1.index t (0 : Fin 2) * 2000 + 1 * (y 0).val = (i 0).val; rw [e0, a0]; omega
  | ⟨1, _⟩ => show win0_1.index t (1 : Fin 2) * 6 + 1 * (y 1).val = (i 1).val; rw [e1, a1]; omega

/-- The weights' block is the weights. -/
theorem w_blk (c : Dev nD) (t : Fin cfg0.N) :
    (iblk0 V c 2 t : Vec Ideal S384x64 .bf16) = (V c main_v24 : Vec Ideal S384x64 .bf16) := by
  obtain ⟨-, -, -, -, -, e0, e1, -⟩ := idx_facts t
  funext y
  unfold iblk0
  rw [View.read_apply]
  show V c main_v24 _ = V c main_v24 _
  congr 1
  funext a
  apply Fin.ext
  match a with
  | ⟨0, _⟩ => show win0_2.index t (0 : Fin 2) * 384 + 1 * (y 0).val = (y 0).val; rw [e0]; omega
  | ⟨1, _⟩ => show win0_2.index t (1 : Fin 2) * 64 + 1 * (y 1).val = (y 1).val; rw [e1]; omega

/-- The bias's block is the bias row. -/
theorem b_blk (c : Dev nD) (t : Fin cfg0.N) :
    (iblk0 V c 3 t : Vec Ideal S1x64 .f32) = (V c main_v25 : Vec Ideal S1x64 .f32) := by
  obtain ⟨-, -, -, -, -, -, -, e0, e1, -⟩ := idx_facts t
  funext y
  unfold iblk0
  rw [View.read_apply]
  show V c main_v25 _ = V c main_v25 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-! ## What a point writes back -/

/-- A tile whose blocks are the arrays' blocks at node offset p is the array function's block at row offset p. Stated
    over variables: the blocks x0 … x3, the arrays, an index j of the tile and an index i of the result. -/
theorem tile_at (x0 : Vec Ideal S6x2000x64 .f32) (x1 : Vec Ideal S2000x6 .f32) (x2 : Vec Ideal S384x64 .bf16)
    (x3 : Vec Ideal S1x64 .f32) (sums : Vec Ideal S6x100000x64 .f32) (cntT : Vec Ideal S100000x6 .f32)
    (W : Vec Ideal S384x64 .bf16) (b : Vec Ideal S1x64 .f32) (p : Nat)
    (h0 : ∀ (y : S6x2000x64.Idx) (i : S6x100000x64.Idx), (i 0).val = (y 0).val → (i 1).val = p * 2000 + (y 1).val →
      (i 2).val = (y 2).val → x0 y = sums i)
    (h1 : ∀ (y : S2000x6.Idx) (i : S100000x6.Idx), (i 0).val = p * 2000 + (y 0).val → (i 1).val = (y 1).val → x1 y = cntT i)
    (h2 : x2 = W) (h3 : x3 = b)
    (j : S2000x64.Idx) (i : S100000x64.Idx) (hi0 : (i 0).val = p * 2000 + (j 0).val) (hi1 : (i 1).val = (j 1).val) :
    Tile0.tile (F := Ideal) x0 x1 x2 x3 j = layerOut sums cntT W b i := by
  subst h2 h3
  obtain ⟨r, q, rfl⟩ : ∃ (r : Fin 2000) (q : Fin 64), j = ix2 r q := ⟨j 0, j 1, eq_ix2 j⟩
  obtain ⟨n, q', rfl⟩ : ∃ (n : Fin 100000) (q' : Fin 64), i = ix2 n q' := ⟨i 0, i 1, eq_ix2 i⟩
  have hn : n.val = p * 2000 + r.val := hi0
  obtain rfl : q' = q := Fin.ext hi1
  have ec : Tile0.catAt x0 x1 r = cat (fun t f => sums (ix3 t n f)) (fun t => cntT (ix2 n t)) := by
    funext k
    unfold Tile0.catAt
    have e0 : (fun (t : Fin 6) (f : Fin 64) => x0 (ix3 t r f)) = fun t f => sums (ix3 t n f) :=
      funext fun t => funext fun f => h0 (ix3 t r f) (ix3 t n f) rfl hn rfl
    have e1 : (fun (t : Fin 6) => x1 (ix2 r t)) = fun t => cntT (ix2 n t) :=
      funext fun t => h1 (ix2 r t) (ix2 n t) hn rfl
    rw [e0, e1]
  rw [Tile0.tile_apply, layerOut_apply, ec]

/-- WHAT POINT t WRITES BACK is block t of the array function of the arrays as the region finds them. -/
theorem flushed_eq (c : Dev nD) (t : Fin cfg0.N) :
    (dat0 V c).flushed 4 t
      = ((cfg0.win 4).blk t).view.read (Elt Ideal) (layerOut (V c main_v23) (V c main_v12) (V c main_v24) (V c main_v25)) := by
  show (cfg0.win 4).cut (grid0.coords t) ((dat0 V c).after 4 t) = _
  rw [after0_4]
  unfold outsAt0
  rw [Tile0.out_eq]
  obtain ⟨-, -, -, -, -, -, -, -, -, e0, e1⟩ := idx_facts t
  funext j
  rw [View.read_apply]
  show Tile0.tile (F := Ideal) (iblk0 V c 0 t) (iblk0 V c 1 t) (iblk0 V c 2 t) (iblk0 V c 3 t) j
    = layerOut (V c main_v23) (V c main_v12) (V c main_v24) (V c main_v25) (((cfg0.win 4).blk t).view.emb j)
  refine tile_at (iblk0 V c 0 t) (iblk0 V c 1 t) (iblk0 V c 2 t) (iblk0 V c 3 t) (V c main_v23) (V c main_v12)
    (V c main_v24) (V c main_v25) t.val (fun y i a0 a1 a2 => sums_blk V c t y i a0 a1 a2)
    (fun y i a0 a1 => cnt_blk V c t y i a0 a1) (w_blk V c t) (b_blk V c t) j (((cfg0.win 4).blk t).view.emb j) ?_ ?_
  · show win0_4.index t (0 : Fin 2) * 2000 + 1 * (j 0).val = t.val * 2000 + (j 0).val
    rw [e0]; omega
  · show win0_4.index t (1 : Fin 2) * 64 + 1 * (j 1).val = (j 1).val
    rw [e1]; omega

/-! ## The blocks tile the result -/

/-- An index of the result is in point t's block iff each coordinate is in the block's range on its axis. -/
theorem mem_blk (t : Fin cfg0.N) (i : S100000x64.Idx) :
    i ∈ ((cfg0.win 4).blk t).view.set ↔ ∀ a : Fin 2, win0_4.index t a * S2000x64.size a ≤ (i a).val
      ∧ (i a).val < win0_4.index t a * S2000x64.size a + S2000x64.size a := by
  show i ∈ ((View.whole main_v26).slice (win0_4.rect t)).set ↔ _
  rw [View.set_slice_whole, Rect.mem_set_unit]
  exact Iff.rfl

/-- Row n of the result is written back by point n / 2000. -/
theorem cover (i : S100000x64.Idx) :
    ∃ t : Fin cfg0.N, (cfg0.win 4).flush t = true ∧ i ∈ ((cfg0.win 4).blk t).view.set := by
  have h0 : (i 0).val < 100000 := (i 0).isLt
  have h1 : (i 1).val < 64 := (i 1).isLt
  have hN : cfg0.N = 50 := N_0
  have hlt : (i 0).val / 2000 < cfg0.N := by omega
  obtain ⟨t, ht⟩ : ∃ t : Fin cfg0.N, t.val = (i 0).val / 2000 := ⟨⟨_, hlt⟩, rfl⟩
  refine ⟨t, flush0_4 t, ?_⟩
  obtain ⟨-, -, -, -, -, -, -, -, -, e0, e1⟩ := idx_facts t
  rw [mem_blk]
  intro a
  match a with
  | ⟨0, _⟩ =>
    show win0_4.index t (0 : Fin 2) * 2000 ≤ (i 0).val ∧ (i 0).val < win0_4.index t (0 : Fin 2) * 2000 + 2000
    rw [e0, ht]; omega
  | ⟨1, _⟩ =>
    show win0_4.index t (1 : Fin 2) * 64 ≤ (i 1).val ∧ (i 1).val < win0_4.index t (1 : Fin 2) * 64 + 64
    rw [e1]; omega

/-! ## The input arrays are as the region found them -/

theorem kept_sums (c : Dev nD) : (dat0 V c).arrAt 0 cfg0.N = V c main_v23 := (dat0 V c).arrAt_in 0 rfl _
theorem kept_cnt (c : Dev nD) : (dat0 V c).arrAt 1 cfg0.N = V c main_v12 := (dat0 V c).arrAt_in 1 rfl _
theorem kept_w (c : Dev nD) : (dat0 V c).arrAt 2 cfg0.N = V c main_v24 := (dat0 V c).arrAt_in 2 rfl _
theorem kept_b (c : Dev nD) : (dat0 V c).arrAt 3 cfg0.N = V c main_v25 := (dat0 V c).arrAt_in 3 rfl _

/-- THE RESULT ARRAY after the run is the array function of the four input arrays. -/
theorem final (c : Dev nD) :
    (dat0 V c).arrAt 4 cfg0.N = layerOut (V c main_v23) (V c main_v12) (V c main_v24) (V c main_v25) :=
  (dat0 V c).arrAt_eq_of_cover 4 _ (fun t _ => flushed_eq V c t) cover

end Cert.KernelIdeal.Blocks0

end
-- ==== Proof.Tile1.lean ====
/-
  One grid point of layer 2's kernel: what the body leaves in the output block, as a function of the point's blocks.

  The body computes, for each of the six time steps, the normalised means of the tile's 2000 nodes from slab t of the
  block of feature sums and column t of the block of edge counts, and stores them as columns 64 t … 64 t + 63 of a
  [2000, 384] scratch; it then reads the scratch whole, multiplies it by the weights, adds the bias row, floors at zero
  and stores the [2000, 16] result. Read at the ideal instance, entry (r, q) of the result is the layer's output for the
  tile's node r: its six segments' normalised means, time-major, against column q of the weights.
-/
import proofs.«160740_j78606491451779_2_alg».proof.Proof.Gen.KernelIdeal.Frame
import Idealize.ShloMosaic.Lib.Pipeline.Value
import Idealize.ShloMosaic.Lib.Tactic
import proofs.«160740_j78606491451779_2_alg».proof.Proof.TileMath
import proofs.«160740_j78606491451779_2_alg».proof.Proof.LibRowStore

set_option maxRecDepth 16384

noncomputable section

namespace Cert.KernelIdeal.Tile1

open Cert.KernelIdeal Cert.KernelIdeal.Gen
open Idealize.ShloMosaic Idealize.ShloMosaic.TcCoe Idealize.SL.Sem Idealize.ShloMosaic.ValueIdx Cert.Hyp

theorem hz2 : (![0, 0] : Fin 2 → Nat) = fun _ => 0 := funext fun a => by fin_cases a <;> rfl

section AnyInstance

variable {F : FTy → Type} [FloatOps F]

/-- The means of one time step: the slab over the counts' column, the counts floored at one. -/
def meanTerm (off : Fin 2 → Nat) (hs : S2000x6.Slices off S2000x1) (cn : FVec F S2000x6 .f32)
    (v : Vec F S1x2000x64 .f32) : FVec F S2000x64 .f32 :=
  divf (shapeCast S2000x64 v shapeCasts_S1x2000x64_S2000x64)
    (broadcastTo S2000x64
      (maximumf (extractStridedSlice S2000x1 off cn hs) (broadcast S2000x1 (Scalar.ofBits .f32 0x3F800000#32)))
      broadcasts_S2000x1_S2000x64)

/-- The normalised means of one time step, in the scratch's format. -/
def stepTerm (off : Fin 2 → Nat) (hs : S2000x6.Slices off S2000x1) (cn : FVec F S2000x6 .f32)
    (v : Vec F S1x2000x64 .f32) : FVec F S2000x64 .bf16 :=
  shapeCast S2000x64
    (truncf .bf16
      (divf (meanTerm off hs cn v)
        (broadcastTo S2000x64
          (subf (broadcast S2000x1 (Scalar.ofBits .f32 0x3F800000#32))
            (mulf (broadcast S2000x1 (Scalar.ofBits .f32 0x3C23D70A#32))
              (shapeCast S2000x1
                (multiReduction .add [1] S2000 (mulf (meanTerm off hs cn v) (meanTerm off hs cn v)) 0x00000000#32
                  reduces_S2000x64_S2000 (.inl rfl) rfl)
                shapeCasts_S2000_S2000x1)))
          broadcasts_S2000x1_S2000x64))
      bitsLt_bf16_f32)
    shapeCasts_S2000x64_S2000x64

/-- The scratch after the six stores, as its pieces, newest first. -/
def hcat (x0 : Vec F S6x2000x64 .f32) (x1 : Vec F S2000x6 .f32) : List (View.Piece (Elt F) S2000x384 .bf16) :=
  [⟨Rect.unit ![0, 320] ![2000, 64] inb_S2000x384_S2000x64_0_320,
      stepTerm ![0, 5] slices_S2000x6_o0_5_S2000x1 (k1_pay5 x1)
        (View.ld x0 (Rect.unit ![5, 0, 0] ![1, 2000, 64] inb_S6x2000x64_S1x2000x64_5_0_0))⟩,
    ⟨Rect.unit ![0, 256] ![2000, 64] inb_S2000x384_S2000x64_0_256,
      stepTerm ![0, 4] slices_S2000x6_o0_4_S2000x1 (k1_pay5 x1)
        (View.ld x0 (Rect.unit ![4, 0, 0] ![1, 2000, 64] inb_S6x2000x64_S1x2000x64_4_0_0))⟩,
    ⟨Rect.unit ![0, 192] ![2000, 64] inb_S2000x384_S2000x64_0_192,
      stepTerm ![0, 3] slices_S2000x6_o0_3_S2000x1 (k1_pay5 x1)
        (View.ld x0 (Rect.unit ![3, 0, 0] ![1, 2000, 64] inb_S6x2000x64_S1x2000x64_3_0_0))⟩,
    ⟨Rect.unit ![0, 128] ![2000, 64] inb_S2000x384_S2000x64_0_128,
      stepTerm ![0, 2] slices_S2000x6_o0_2_S2000x1 (k1_pay5 x1)
        (View.ld x0 (Rect.unit ![2, 0, 0] ![1, 2000, 64] inb_S6x2000x64_S1x2000x64_2_0_0))⟩,
    ⟨Rect.unit ![0, 64] ![2000, 64] inb_S2000x384_S2000x64_0_64,
      stepTerm ![0, 1] slices_S2000x6_o0_1_S2000x1 (k1_pay5 x1)
        (View.ld x0 (Rect.unit ![1, 0, 0] ![1, 2000, 64] inb_S6x2000x64_S1x2000x64_1_0_0))⟩,
    ⟨Rect.unit ![0, 0] ![2000, 64] inb_S2000x384_S2000x64_0_0,
      stepTerm ![0, 0] slices_S2000x6_o0_0_S2000x1 (k1_pay5 x1)
        (View.ld x0 (Rect.unit ![0, 0, 0] ![1, 2000, 64] inb_S6x2000x64_S1x2000x64_0_0_0))⟩]

/-- What the body stores in the output block. -/
def tile (x0 : Vec F S6x2000x64 .f32) (x1 : Vec F S2000x6 .f32) (x2 : Vec F S384x16 .bf16) (x3 : Vec F S1x16 .f32) :
    Vec F S2000x16 .f32 :=
  k1_pay2 (k1_pay3 x2) (k1_pay4 x3) (View.canon (hcat x0 x1))

/-- The run's found piece is that term: one covering store, its loads reading the whole input buffers, slab t of the
    sums, and the scratch after its six stores. -/
theorem out_eq (c : Dev nD) (i : grid1.Coords) (arg1 : Memref sig .tc .vmem S6x2000x64 .f32) (harg1 : arg1.IsWhole) (arg2 : Memref sig .tc .vmem S2000x6 .f32) (harg2 : arg2.IsWhole) (arg3 : Memref sig .tc .vmem S384x16 .bf16) (harg3 : arg3.IsWhole) (arg4 : Memref sig .tc .vmem S1x16 .f32) (harg4 : arg4.IsWhole) (arg5 : Memref sig .tc .vmem S2000x16 .f32) (harg5 : arg5.IsWhole) (arg6 : Memref sig .tc .vmem S2000x384 .bf16) (harg6 : arg6.IsWhole)
    (x0 : Vec F S6x2000x64 .f32) (x1 : Vec F S2000x6 .f32) (x2 : Vec F S384x16 .bf16) (x3 : Vec F S1x16 .f32) :
    out1_A_4 c i arg1 harg1 arg2 harg2 arg3 harg3 arg4 harg4 arg5 harg5 arg6 harg6 x0 x1 x2 x3 = tile x0 x1 x2 x3 := by
  unfold out1_A_4
  rw [View.read_writes_eq_canon _ _ _ (cover1_A_4 c i arg1 harg1 arg2 harg2 arg3 harg3 arg4 harg4 arg5 harg5 arg6 harg6 x0 x1 x2 x3)]
  unfold kernelRun1_A
  dsimp only
  sl_unfold_words
  rw [View.canon_unit_zero hz2]
  simp only [View.readAt_eq_ld, harg1.read_unread, harg2.read_unread, harg3.read_unread, harg4.read_unread,
    View.ld_unit_zero (S := S384x16) hz2, View.ld_unit_zero (S := S1x16) hz2, View.ld_unit_zero (S := S2000x6) hz2]
  have key : arg6.view.readCov (hcat x0 x1) (Rect.unit ![0, 0] ![2000, 384] inb_S2000x384_S2000x384_0_0).toLoadRect
      = View.canon (hcat x0 x1) := by
    rw [View.readCov_eq_canon']
    exact View.ld_unit_zero (S := S2000x384) hz2 inb_S2000x384_S2000x384_0_0 (View.canon (hcat x0 x1))
  exact congrArg (k1_pay2 (k1_pay3 x2) (k1_pay4 x3)) key

end AnyInstance

/-! ## At the ideal instance -/

/-- One time step's normalised mean at (r, f). -/
theorem stepTerm_apply (t : Nat) (ht : t < 6) (hs : S2000x6.Slices ![0, t] S2000x1) (cn : FVec Ideal S2000x6 .f32)
    (v : Vec Ideal S1x2000x64 .f32) (r : Fin 2000) (f : Fin 64) :
    stepTerm (F := Ideal) ![0, t] hs cn v (ix2 r f)
      = hyp (fun f' => v (ix3 (0 : Fin 1) r f')) (cn (ix2 r (⟨t, ht⟩ : Fin 6))) f := by
  unfold stepTerm
  refine (congrFun (shapeCast_self _ shapeCasts_S2000x64_S2000x64) (ix2 r f)).trans ?_
  exact Cert.Tile.hyp_apply (R := 2000) (meanTerm ![0, t] hs cn v) _ _ r
    (fun f => Cert.Tile.mean_apply (R := 2000) v cn t ht shapeCasts_S1x2000x64_S2000x64 hs broadcasts_S2000x1_S2000x64 r f)
    reduces_S2000x64_S2000 (.inl rfl) rfl shapeCasts_S2000_S2000x1 broadcasts_S2000x1_S2000x64 bitsLt_bf16_f32 f

/-- Node r's concatenated row, from the point's blocks. -/
def catAt (x0 : Vec Ideal S6x2000x64 .f32) (x1 : Vec Ideal S2000x6 .f32) (r : Fin 2000) (k : Fin 384) : EReal :=
  cat (fun t f => x0 (ix3 t r f)) (fun t => x1 (ix2 r t)) k

theorem catAt_mk (x0 : Vec Ideal S6x2000x64 .f32) (x1 : Vec Ideal S2000x6 .f32) (a b : Nat) (ha : a < 2000) (hb : b < 384)
    (r : Fin 2000) (k : Fin 384) (h0 : a = r.val) (h1 : b = k.val) :
    catAt x0 x1 ⟨a, ha⟩ ⟨b, hb⟩ = catAt x0 x1 r k := by
  subst h0 h1; rfl

/-- Position 64 t + f of the concatenated row is time step t's normalised mean at feature f. -/
theorem catAt_block (x0 : Vec Ideal S6x2000x64 .f32) (x1 : Vec Ideal S2000x6 .f32) (t : Nat) (ht : t < 6) (r : Fin 2000)
    (f : Fin 64) (h : 64 * t + f.val < 384) :
    catAt x0 x1 r ⟨64 * t + f.val, h⟩
      = hyp (fun f' => x0 (ix3 (⟨t, ht⟩ : Fin 6) r f')) (x1 (ix2 r (⟨t, ht⟩ : Fin 6))) f := by
  unfold catAt cat
  have e1 : stepOf ⟨64 * t + f.val, h⟩ = (⟨t, ht⟩ : Fin 6) := Fin.ext (by
    show (64 * t + f.val) / 64 = t
    have := f.isLt; omega)
  have e2 : featOf ⟨64 * t + f.val, h⟩ = f := Fin.ext (by
    show (64 * t + f.val) % 64 = f.val
    have := f.isLt; omega)
  rw [e1, e2]

/-- The scratch's contents as one function of the scratch index. -/
def Gcat (x0 : Vec Ideal S6x2000x64 .f32) (x1 : Vec Ideal S2000x6 .f32) (y : S2000x384.Idx) : EReal :=
  catAt x0 x1 ⟨(y 0).val, idx2_lt0 y⟩ ⟨(y 1).val, idx2_lt1 y⟩

/-- A piece stored at columns 64 t … holds, at its local (r, f), the scratch function at the embedded index. -/
theorem piece_eq (x0 : Vec Ideal S6x2000x64 .f32) (x1 : Vec Ideal S2000x6 .f32) (t : Nat) (ht : t < 6)
    (hs : S2000x6.Slices ![0, t] S2000x1) (o : Nat) (ho : o = 64 * t)
    (inb : ∀ a, (![0, o] : Fin 2 → Nat) a + (![2000, 64] : Fin 2 → Nat) a ≤ S2000x384.size a)
    (inbs : ∀ a, (![t, 0, 0] : Fin 3 → Nat) a + (![1, 2000, 64] : Fin 3 → Nat) a ≤ S6x2000x64.size a)
    (x : (⟨2, ![2000, 64]⟩ : Shape).Idx) :
    stepTerm (F := Ideal) ![0, t] hs (k1_pay5 x1) (View.ld x0 (Rect.unit ![t, 0, 0] ![1, 2000, 64] inbs)) x
      = Gcat x0 x1 ((Rect.unit (s := S2000x384) ![0, o] ![2000, 64] inb).emb x) := by
  subst ho
  obtain ⟨r, f, rfl⟩ : ∃ (r : Fin 2000) (f : Fin 64), x = ix2 r f := ⟨x 0, x 1, eq_ix2 x⟩
  rw [stepTerm_apply t ht]
  have hf := f.isLt
  have hr := r.isLt
  have hk : 64 * t + f.val < 384 := by omega
  have h0 : ((Rect.unit (s := S2000x384) ![0, 64 * t] ![2000, 64] inb).emb (ix2 r f) 0).val = r.val := by
    show 0 + 1 * r.val = r.val
    omega
  have h1 : ((Rect.unit (s := S2000x384) ![0, 64 * t] ![2000, 64] inb).emb (ix2 r f) 1).val
      = (⟨64 * t + f.val, hk⟩ : Fin 384).val := by
    show 64 * t + 1 * f.val = 64 * t + f.val
    omega
  unfold Gcat
  rw [catAt_mk x0 x1 _ _ _ _ r ⟨64 * t + f.val, hk⟩ h0 h1, catAt_block x0 x1 t ht r f]
  have e1 : k1_pay5 x1 (ix2 r (⟨t, ht⟩ : Fin 6)) = x1 (ix2 r (⟨t, ht⟩ : Fin 6)) :=
    congrFun (shapeCast_self x1 shapeCasts_S2000x6_S2000x6) _
  have e2 : ∀ f' : Fin 64, View.ld x0 (Rect.unit ![t, 0, 0] ![1, 2000, 64] inbs) (ix3 (0 : Fin 1) r f')
      = x0 (ix3 (⟨t, ht⟩ : Fin 6) r f') := fun f' => Cert.Lib.ld_slab x0 t ht inbs r f'
  rw [e1]
  simp only [e2]

/-- Every piece of the scratch agrees with the scratch function. -/
theorem hcat_pieces (x0 : Vec Ideal S6x2000x64 .f32) (x1 : Vec Ideal S2000x6 .f32) :
    ∀ p ∈ hcat (F := Ideal) x0 x1, ∀ x : p.1.shape.Idx, p.2 x = Gcat x0 x1 (p.1.emb x) := by
  intro p hp
  unfold hcat at hp
  simp only [List.mem_cons, List.mem_nil_iff, or_false] at hp
  rcases hp with rfl | rfl | rfl | rfl | rfl | rfl
  · exact fun x => piece_eq x0 x1 5 (by decide) slices_S2000x6_o0_5_S2000x1 320 rfl inb_S2000x384_S2000x64_0_320
      inb_S6x2000x64_S1x2000x64_5_0_0 x
  · exact fun x => piece_eq x0 x1 4 (by decide) slices_S2000x6_o0_4_S2000x1 256 rfl inb_S2000x384_S2000x64_0_256
      inb_S6x2000x64_S1x2000x64_4_0_0 x
  · exact fun x => piece_eq x0 x1 3 (by decide) slices_S2000x6_o0_3_S2000x1 192 rfl inb_S2000x384_S2000x64_0_192
      inb_S6x2000x64_S1x2000x64_3_0_0 x
  · exact fun x => piece_eq x0 x1 2 (by decide) slices_S2000x6_o0_2_S2000x1 128 rfl inb_S2000x384_S2000x64_0_128
      inb_S6x2000x64_S1x2000x64_2_0_0 x
  · exact fun x => piece_eq x0 x1 1 (by decide) slices_S2000x6_o0_1_S2000x1 64 rfl inb_S2000x384_S2000x64_0_64
      inb_S6x2000x64_S1x2000x64_1_0_0 x
  · exact fun x => piece_eq x0 x1 0 (by decide) slices_S2000x6_o0_0_S2000x1 0 rfl inb_S2000x384_S2000x64_0_0
      inb_S6x2000x64_S1x2000x64_0_0_0 x

/-- The six column blocks cover the scratch. -/
theorem hcat_cover (x0 : Vec Ideal S6x2000x64 .f32) (x1 : Vec Ideal S2000x6 .f32) (r : Fin 2000) (k : Fin 384) :
    ∃ p ∈ hcat (F := Ideal) x0 x1, ix2 r k ∈ p.1.set := by
  have hr := r.isLt
  have hk := k.isLt
  have mem : ∀ (o : Nat) (inb : ∀ a, (![0, o] : Fin 2 → Nat) a + (![2000, 64] : Fin 2 → Nat) a ≤ S2000x384.size a),
      o ≤ k.val → k.val < o + 64 → ix2 r k ∈ (Rect.unit (s := S2000x384) ![0, o] ![2000, 64] inb).set :=
    fun o inb h1 h2 => Rect.mem_set_unit.mpr fun a => by
      match a with
      | ⟨0, _⟩ => show 0 ≤ r.val ∧ r.val < 0 + 2000; omega
      | ⟨1, _⟩ => show o ≤ k.val ∧ k.val < o + 64; omega
  unfold hcat
  by_cases c5 : 320 ≤ k.val
  · exact ⟨_, List.mem_cons_self, mem 320 inb_S2000x384_S2000x64_0_320 c5 (by omega)⟩
  by_cases c4 : 256 ≤ k.val
  · exact ⟨_, List.mem_cons_of_mem _ List.mem_cons_self, mem 256 inb_S2000x384_S2000x64_0_256 c4 (by omega)⟩
  by_cases c3 : 192 ≤ k.val
  · exact ⟨_, List.mem_cons_of_mem _ (List.mem_cons_of_mem _ List.mem_cons_self), mem 192 inb_S2000x384_S2000x64_0_192 c3 (by omega)⟩
  by_cases c2 : 128 ≤ k.val
  · exact ⟨_, List.mem_cons_of_mem _ (List.mem_cons_of_mem _ (List.mem_cons_of_mem _ List.mem_cons_self)), mem 128 inb_S2000x384_S2000x64_0_128 c2 (by omega)⟩
  by_cases c1 : 64 ≤ k.val
  · exact ⟨_, List.mem_cons_of_mem _ (List.mem_cons_of_mem _ (List.mem_cons_of_mem _ (List.mem_cons_of_mem _ List.mem_cons_self))), mem 64 inb_S2000x384_S2000x64_0_64 c1 (by omega)⟩
  · exact ⟨_, List.mem_cons_of_mem _ (List.mem_cons_of_mem _ (List.mem_cons_of_mem _ (List.mem_cons_of_mem _ (List.mem_cons_of_mem _ List.mem_cons_self)))), mem 0 inb_S2000x384_S2000x64_0_0 (by omega) (by omega)⟩

/-- The scratch read at (r, k) is node r's concatenated row at k. -/
theorem hcat_apply (x0 : Vec Ideal S6x2000x64 .f32) (x1 : Vec Ideal S2000x6 .f32) (r : Fin 2000) (k : Fin 384) :
    View.canon (hcat (F := Ideal) x0 x1) (ix2 r k) = catAt x0 x1 r k :=
  View.canon_apply_of_pieces (Gcat x0 x1) (hcat x0 x1) (hcat_pieces x0 x1) (ix2 r k) (hcat_cover x0 x1 r k)

/-- THE TILE at (r, q): the layer's output for the tile's node r and output column q. -/
theorem tile_apply (x0 : Vec Ideal S6x2000x64 .f32) (x1 : Vec Ideal S2000x6 .f32) (x2 : Vec Ideal S384x16 .bf16)
    (x3 : Vec Ideal S1x16 .f32) (r : Fin 2000) (q : Fin 16) :
    tile (F := Ideal) x0 x1 x2 x3 (ix2 r q)
      = out (catAt x0 x1 r) (fun k => x2 (ix2 k q)) (x3 (ix2 (0 : Fin 1) q)) := by
  unfold tile k1_pay2 k1_pay3 k1_pay4
  refine (Cert.Tile.out_apply (R := 2000) (N := 16) (View.canon (hcat (F := Ideal) x0 x1))
    (shapeCast S384x16 x2 shapeCasts_S384x16_S384x16) (shapeCast S1x16 x3 shapeCasts_S1x16_S1x16)
    dot_S2000x384_S384x16_S2000x16_1_0_0_1_n_n.wf broadcasts_S1x16_S2000x16 r q).trans ?_
  rw [shapeCast_self, shapeCast_self]
  refine congrArg (fun row => out row (fun k => x2 (ix2 k q)) (x3 (ix2 (0 : Fin 1) q))) ?_
  exact funext fun k => hcat_apply x0 x1 r k

end Cert.KernelIdeal.Tile1

end
-- ==== Proof.Blocks1.lean ====
/-
  Region 1 of the idealized kernel, from blocks to the array.

  The grid has 50 points. Point t works on nodes 2000 t … 2000 t + 1999: it reads slab [6, 2000, 64] of the feature
  sums at node offset 2000 t, rows 2000 t … of the transposed counts [100000, 6], the whole weights and the whole bias
  row, and writes back rows 2000 t … of the result. Each written block is the matching block of ONE function of the
  four arrays (`layerOut`), and the 50 blocks tile the result, so after the run the result array is that function.
-/
import proofs.«160740_j78606491451779_2_alg».proof.Proof.Tile1
import proofs.«160740_j78606491451779_2_alg».proof.Proof.LayerSpec
import Idealize.ShloMosaic.Lib.Pipeline.Value
import Idealize.ShloMosaic.Lib.Tactic

set_option maxRecDepth 16384

noncomputable section

namespace Cert.KernelIdeal.Blocks1

open Cert.KernelIdeal Cert.KernelIdeal.Gen Cert.Hyp
open Idealize.ShloMosaic Idealize.ShloMosaic.TcCoe Idealize.SL.Sem Idealize.ShloMosaic.ValueIdx
open Idealize.ShloMosaic.Pipeline (Dat)

/-- The layer as ONE function of the four arrays, index by index: entry (n, q) is node n's six segments' normalised
    means, time-major, against column q of the weights, plus the bias, floored at zero. -/
def layerOut (sums : Vec Ideal S6x100000x64 .f32) (cntT : Vec Ideal S100000x6 .f32) (W : Vec Ideal S384x16 .bf16)
    (b : Vec Ideal S1x16 .f32) : Vec Ideal S100000x16 .f32 :=
  fun y => out (cat (fun t f => sums (ix3 t ⟨(y 0).val, idx2_lt0 y⟩ f)) (fun t => cntT (ix2 ⟨(y 0).val, idx2_lt0 y⟩ t)))
    (fun k => W (ix2 k ⟨(y 1).val, idx2_lt1 y⟩)) (b (ix2 (0 : Fin 1) ⟨(y 1).val, idx2_lt1 y⟩))

theorem layerOut_apply (sums : Vec Ideal S6x100000x64 .f32) (cntT : Vec Ideal S100000x6 .f32) (W : Vec Ideal S384x16 .bf16)
    (b : Vec Ideal S1x16 .f32) (n : Fin 100000) (q : Fin 16) :
    layerOut sums cntT W b (ix2 n q)
      = out (cat (fun t f => sums (ix3 t n f)) (fun t => cntT (ix2 n t))) (fun k => W (ix2 k q)) (b (ix2 (0 : Fin 1) q)) := rfl

variable (V : (c : Dev nD) → (b : Ref sig .tc) → Buf (Elt Ideal) ((c : Thread nD τ).loc b))

/-! ## Where each window's block sits, decided once over the grid -/

/-- At point t the sums' block is at node offset t, the counts' and the result's at row offset t, and the weights' and
    the bias's are the arrays themselves. -/
theorem idx_facts : ∀ t : Fin cfg1.N,
    win1_0.index t (0 : Fin 3) = 0 ∧ win1_0.index t (1 : Fin 3) = t.val ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## The input blocks, read at an index -/

/-- The sums' block at point t: node r of the block is node 2000 t + r of the array. -/
theorem sums_blk (c : Dev nD) (t : Fin cfg1.N) (y : S6x2000x64.Idx) (i : S6x100000x64.Idx)
    (a0 : (i 0).val = (y 0).val) (a1 : (i 1).val = t.val * 2000 + (y 1).val) (a2 : (i 2).val = (y 2).val) :
    (iblk1 V c 0 t : Vec Ideal S6x2000x64 .f32) y = (V c main_v37 : Vec Ideal S6x100000x64 .f32) i := by
  obtain ⟨e0, e1, e2, -⟩ := idx_facts t
  unfold iblk1
  rw [View.read_apply]
  show V c main_v37 _ = V c main_v37 _
  congr 1
  funext a
  apply Fin.ext
  match a with
  | ⟨0, _⟩ => show win1_0.index t (0 : Fin 3) * 6 + 1 * (y 0).val = (i 0).val; rw [e0, a0]; omega
  | ⟨1, _⟩ => show win1_0.index t (1 : Fin 3) * 2000 + 1 * (y 1).val = (i 1).val; rw [e1, a1]; omega
  | ⟨2, _⟩ => show win1_0.index t (2 : Fin 3) * 64 + 1 * (y 2).val = (i 2).val; rw [e2, a2]; omega

/-- The counts' block at point t: row r of the block is row 2000 t + r of the array. -/
theorem cnt_blk (c : Dev nD) (t : Fin cfg1.N) (y : S2000x6.Idx) (i : S100000x6.Idx)
    (a0 : (i 0).val = t.val * 2000 + (y 0).val) (a1 : (i 1).val = (y 1).val) :
    (iblk1 V c 1 t : Vec Ideal S2000x6 .f32) y = (V c main_v12 : Vec Ideal S100000x6 .f32) i := by
  obtain ⟨-, -, -, e0, e1, -⟩ := idx_facts t
  unfold iblk1
  rw [View.read_apply]
  show V c main_v12 _ = V c main_v12 _
  congr 1
  funext a
  apply Fin.ext
  match a with
  | ⟨0, _⟩ => show win1_1.index t (0 : Fin 2) * 2000 + 1 * (y 0).val = (i 0).val; rw [e0, a0]; omega
  | ⟨1, _⟩ => show win1_1.index t (1 : Fin 2) * 6 + 1 * (y 1).val = (i 1).val; rw [e1, a1]; omega

/-- The weights' block is the weights. -/
theorem w_blk (c : Dev nD) (t : Fin cfg1.N) :
    (iblk1 V c 2 t : Vec Ideal S384x16 .bf16) = (V c main_v38 : Vec Ideal S384x16 .bf16) := by
  obtain ⟨-, -, -, -, -, e0, e1, -⟩ := idx_facts t
  funext y
  unfold iblk1
  rw [View.read_apply]
  show V c main_v38 _ = V c main_v38 _
  congr 1
  funext a
  apply Fin.ext
  match a with
  | ⟨0, _⟩ => show win1_2.index t (0 : Fin 2) * 384 + 1 * (y 0).val = (y 0).val; rw [e0]; omega
  | ⟨1, _⟩ => show win1_2.index t (1 : Fin 2) * 16 + 1 * (y 1).val = (y 1).val; rw [e1]; omega

/-- The bias's block is the bias row. -/
theorem b_blk (c : Dev nD) (t : Fin cfg1.N) :
    (iblk1 V c 3 t : Vec Ideal S1x16 .f32) = (V c main_v39 : Vec Ideal S1x16 .f32) := by
  obtain ⟨-, -, -, -, -, -, -, e0, e1, -⟩ := idx_facts t
  funext y
  unfold iblk1
  rw [View.read_apply]
  show V c main_v39 _ = V c main_v39 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 16 + 1 * (y 1).val = (y 1).val; rw [e1]; omega

/-! ## What a point writes back -/

/-- A tile whose blocks are the arrays' blocks at node offset p is the array function's block at row offset p. Stated
    over variables: the blocks x0 … x3, the arrays, an index j of the tile and an index i of the result. -/
theorem tile_at (x0 : Vec Ideal S6x2000x64 .f32) (x1 : Vec Ideal S2000x6 .f32) (x2 : Vec Ideal S384x16 .bf16)
    (x3 : Vec Ideal S1x16 .f32) (sums : Vec Ideal S6x100000x64 .f32) (cntT : Vec Ideal S100000x6 .f32)
    (W : Vec Ideal S384x16 .bf16) (b : Vec Ideal S1x16 .f32) (p : Nat)
    (h0 : ∀ (y : S6x2000x64.Idx) (i : S6x100000x64.Idx), (i 0).val = (y 0).val → (i 1).val = p * 2000 + (y 1).val →
      (i 2).val = (y 2).val → x0 y = sums i)
    (h1 : ∀ (y : S2000x6.Idx) (i : S100000x6.Idx), (i 0).val = p * 2000 + (y 0).val → (i 1).val = (y 1).val → x1 y = cntT i)
    (h2 : x2 = W) (h3 : x3 = b)
    (j : S2000x16.Idx) (i : S100000x16.Idx) (hi0 : (i 0).val = p * 2000 + (j 0).val) (hi1 : (i 1).val = (j 1).val) :
    Tile1.tile (F := Ideal) x0 x1 x2 x3 j = layerOut sums cntT W b i := by
  subst h2 h3
  obtain ⟨r, q, rfl⟩ : ∃ (r : Fin 2000) (q : Fin 16), j = ix2 r q := ⟨j 0, j 1, eq_ix2 j⟩
  obtain ⟨n, q', rfl⟩ : ∃ (n : Fin 100000) (q' : Fin 16), i = ix2 n q' := ⟨i 0, i 1, eq_ix2 i⟩
  have hn : n.val = p * 2000 + r.val := hi0
  obtain rfl : q' = q := Fin.ext hi1
  have ec : Tile1.catAt x0 x1 r = cat (fun t f => sums (ix3 t n f)) (fun t => cntT (ix2 n t)) := by
    funext k
    unfold Tile1.catAt
    have e0 : (fun (t : Fin 6) (f : Fin 64) => x0 (ix3 t r f)) = fun t f => sums (ix3 t n f) :=
      funext fun t => funext fun f => h0 (ix3 t r f) (ix3 t n f) rfl hn rfl
    have e1 : (fun (t : Fin 6) => x1 (ix2 r t)) = fun t => cntT (ix2 n t) :=
      funext fun t => h1 (ix2 r t) (ix2 n t) hn rfl
    rw [e0, e1]
  rw [Tile1.tile_apply, layerOut_apply, ec]

/-- WHAT POINT t WRITES BACK is block t of the array function of the arrays as the region finds them. -/
theorem flushed_eq (c : Dev nD) (t : Fin cfg1.N) :
    (dat1 V c).flushed 4 t
      = ((cfg1.win 4).blk t).view.read (Elt Ideal) (layerOut (V c main_v37) (V c main_v12) (V c main_v38) (V c main_v39)) := by
  show (cfg1.win 4).cut (grid1.coords t) ((dat1 V c).after 4 t) = _
  rw [after1_4]
  unfold outsAt1
  rw [Tile1.out_eq]
  obtain ⟨-, -, -, -, -, -, -, -, -, e0, e1⟩ := idx_facts t
  funext j
  rw [View.read_apply]
  show Tile1.tile (F := Ideal) (iblk1 V c 0 t) (iblk1 V c 1 t) (iblk1 V c 2 t) (iblk1 V c 3 t) j
    = layerOut (V c main_v37) (V c main_v12) (V c main_v38) (V c main_v39) (((cfg1.win 4).blk t).view.emb j)
  refine tile_at (iblk1 V c 0 t) (iblk1 V c 1 t) (iblk1 V c 2 t) (iblk1 V c 3 t) (V c main_v37) (V c main_v12)
    (V c main_v38) (V c main_v39) t.val (fun y i a0 a1 a2 => sums_blk V c t y i a0 a1 a2)
    (fun y i a0 a1 => cnt_blk V c t y i a0 a1) (w_blk V c t) (b_blk V c t) j (((cfg1.win 4).blk t).view.emb j) ?_ ?_
  · show win1_4.index t (0 : Fin 2) * 2000 + 1 * (j 0).val = t.val * 2000 + (j 0).val
    rw [e0]; omega
  · show win1_4.index t (1 : Fin 2) * 16 + 1 * (j 1).val = (j 1).val
    rw [e1]; omega

/-! ## The blocks tile the result -/

/-- An index of the result is in point t's block iff each coordinate is in the block's range on its axis. -/
theorem mem_blk (t : Fin cfg1.N) (i : S100000x16.Idx) :
    i ∈ ((cfg1.win 4).blk t).view.set ↔ ∀ a : Fin 2, win1_4.index t a * S2000x16.size a ≤ (i a).val
      ∧ (i a).val < win1_4.index t a * S2000x16.size a + S2000x16.size a := by
  show i ∈ ((View.whole main_v40).slice (win1_4.rect t)).set ↔ _
  rw [View.set_slice_whole, Rect.mem_set_unit]
  exact Iff.rfl

/-- Row n of the result is written back by point n / 2000. -/
theorem cover (i : S100000x16.Idx) :
    ∃ t : Fin cfg1.N, (cfg1.win 4).flush t = true ∧ i ∈ ((cfg1.win 4).blk t).view.set := by
  have h0 : (i 0).val < 100000 := (i 0).isLt
  have h1 : (i 1).val < 16 := (i 1).isLt
  have hN : cfg1.N = 50 := N_1
  have hlt : (i 0).val / 2000 < cfg1.N := by omega
  obtain ⟨t, ht⟩ : ∃ t : Fin cfg1.N, t.val = (i 0).val / 2000 := ⟨⟨_, hlt⟩, rfl⟩
  refine ⟨t, flush1_4 t, ?_⟩
  obtain ⟨-, -, -, -, -, -, -, -, -, e0, e1⟩ := idx_facts t
  rw [mem_blk]
  intro a
  match a with
  | ⟨0, _⟩ =>
    show win1_4.index t (0 : Fin 2) * 2000 ≤ (i 0).val ∧ (i 0).val < win1_4.index t (0 : Fin 2) * 2000 + 2000
    rw [e0, ht]; omega
  | ⟨1, _⟩ =>
    show win1_4.index t (1 : Fin 2) * 16 ≤ (i 1).val ∧ (i 1).val < win1_4.index t (1 : Fin 2) * 16 + 16
    rw [e1]; omega

/-! ## The input arrays are as the region found them -/

theorem kept_sums (c : Dev nD) : (dat1 V c).arrAt 0 cfg1.N = V c main_v37 := (dat1 V c).arrAt_in 0 rfl _
theorem kept_cnt (c : Dev nD) : (dat1 V c).arrAt 1 cfg1.N = V c main_v12 := (dat1 V c).arrAt_in 1 rfl _
theorem kept_w (c : Dev nD) : (dat1 V c).arrAt 2 cfg1.N = V c main_v38 := (dat1 V c).arrAt_in 2 rfl _
theorem kept_b (c : Dev nD) : (dat1 V c).arrAt 3 cfg1.N = V c main_v39 := (dat1 V c).arrAt_in 3 rfl _

/-- THE RESULT ARRAY after the run is the array function of the four input arrays. -/
theorem final (c : Dev nD) :
    (dat1 V c).arrAt 4 cfg1.N = layerOut (V c main_v37) (V c main_v12) (V c main_v38) (V c main_v39) :=
  (dat1 V c).arrAt_eq_of_cover 4 _ (fun t _ => flushed_eq V c t) cover

end Cert.KernelIdeal.Blocks1

end
-- ==== Proof.RefLayers.lean ====
/-
  The reference's two layers, read index by index.

  Each layer starts from two flat arrays over the 600000 segments (segment (t, n) is row t * 100000 + n): the summed
  feature rows, [600000, 64], and the edge counts, [600000]. The later operations divide each row by its count floored
  at one (the mean), sum the squares of a row's 64 means, divide the mean by one minus c² times that sum, lay a node's
  six rows (one per time step) side by side into one row of 384 entries, multiply by the weights, add the bias and
  floor at zero. This file follows those operations one at a time and states the result as the specification's `out`
  of the specification's `cat` of the two flat arrays, which stay unopened.
-/
import proofs.«160740_j78606491451779_2_alg».proof.Proof.Gen.ReferenceIdeal.Read
import proofs.«160740_j78606491451779_2_alg».proof.Proof.LayerSpec
import Idealize.ShloMosaic.Lib.ValueIdx
import Idealize.ShloMosaic.PureOps.Ideal.Laws

noncomputable section

namespace Cert.RefLayers

open Idealize.ShloMosaic Idealize.ShloMosaic.ValueIdx Idealize.ShloMosaic.TcCoe Idealize.SL.Sem Idealize.ShloMosaic.StableHlo
open Cert.ReferenceIdeal Cert.ReferenceIdeal.Read Cert.Hyp

variable (x0 : (⟨S100000x64, .f32⟩ : BufTy).Contents (Elt Ideal)) (x1 : (⟨S2x1600000, .i32⟩ : BufTy).Contents (Elt Ideal))
  (x2 : (⟨S1600000, .i32⟩ : BufTy).Contents (Elt Ideal)) (x3 : (⟨S384x64, .f32⟩ : BufTy).Contents (Elt Ideal))
  (x4 : (⟨S64, .f32⟩ : BufTy).Contents (Elt Ideal)) (x5 : (⟨S384x16, .f32⟩ : BufTy).Contents (Elt Ideal))
  (x6 : (⟨S16, .f32⟩ : BufTy).Contents (Elt Ideal))

/-- Segment (t, n) as a row of the flat arrays. -/
def seg (t : Fin 6) (n : Fin 100000) : Fin 600000 :=
  ⟨t.val * 100000 + n.val, by have := t.isLt; have := n.isLt; omega⟩

/-! ## Where the layout operations read -/

/-- A count broadcast along the features is read at its row. -/
theorem idx_count (r : Fin 600000) (f : Fin 64) : idx_main_v22 (idx_main_v23 (ix2 r f)) = ix1 r :=
  funext fun a => Fin.ext (by match a with | ⟨0, _⟩ => rfl)

/-- The k-th summand of a row's sum is the row's entry k. -/
theorem idx_sum (r : Fin 600000) (k : Fin 64) : idx_main_v26 (ix1 r) k = ix2 r k :=
  funext fun a => Fin.ext (by match a with | ⟨0, _⟩ => rfl | ⟨1, _⟩ => rfl)

/-- A row's sum of squares broadcast along the features is read at its row. -/
theorem idx_norm (r : Fin 600000) (f : Fin 64) : idx_main_v27 (idx_main_v32 (ix2 r f)) = ix1 r :=
  funext fun a => Fin.ext (by match a with | ⟨0, _⟩ => rfl)

/-- Entry k of node n's row of 384 is segment (k / 64, n)'s entry k % 64: the reshape to [6, 100000, 64], the exchange
    of the first two axes and the reshape to [100000, 384], composed. -/
theorem idx_row (n : Fin 100000) (k : Fin 384) :
    idx_main_v34 (idx_main_v35 (idx_main_v36 (ix2 n k))) = ix2 (seg (stepOf k) n) (featOf k) :=
  funext fun a => Fin.ext (by
    have hn := n.isLt
    have hk := k.isLt
    match a with
    | ⟨0, _⟩ =>
      show (((n.val * 384 + k.val) / 64 % 6 * 100000 + (n.val * 384 + k.val) / 384) * 64 + (n.val * 384 + k.val) % 64) / 64
        = k.val / 64 * 100000 + n.val
      omega
    | ⟨1, _⟩ =>
      show (((n.val * 384 + k.val) / 64 % 6 * 100000 + (n.val * 384 + k.val) / 384) * 64 + (n.val * 384 + k.val) % 64) % 64
        = k.val % 64
      omega)

/-- The product's k-th left factor is entry k of the node's row … -/
theorem idx_lhs (n : Fin 100000) (q : Fin 64) (k : Fin 384) : lidx_main_v37 (ix2 n q) k = ix2 n k :=
  funext fun a => Fin.ext (by match a with | ⟨0, _⟩ => rfl | ⟨1, _⟩ => rfl)

/-- … and its k-th right factor is the weight at (k, q). -/
theorem idx_rhs (n : Fin 100000) (q : Fin 64) (k : Fin 384) : ridx_main_v37 (ix2 n q) k = ix2 k q :=
  funext fun a => Fin.ext (by match a with | ⟨0, _⟩ => rfl | ⟨1, _⟩ => rfl)

/-- The bias broadcast along the nodes is read at its column. -/
theorem idx_bias (n : Fin 100000) (q : Fin 64) : idx_main_v38 (idx_main_v39 (ix2 n q)) = ix1 q :=
  funext fun a => Fin.ext (by match a with | ⟨0, _⟩ => rfl)

/-! ## Layer 1, one operation at a time -/

/-- The divisor at (r, f) is the row's count floored at one. -/
theorem count_apply (r : Fin 600000) (f : Fin 64) :
    val_main_v23 (F := Ideal) x1 x2 (ix2 r f) = max (val_main_v20 (F := Ideal) x1 x2 (ix1 r)) one := by
  rw [val_main_v23_apply, val_main_v22_apply, val_main_v21_apply, val_main_call0_v1_apply, val_main_call0_v0_apply,
    val_main_cst_4_apply, idx_count, Ideal.maximumf_def, Ideal.ofBits_def, max_comm]

/-- The mean of segment r at feature f. -/
theorem mean_apply (r : Fin 600000) (f : Fin 64) :
    val_main_v24 (F := Ideal) x0 x1 x2 (ix2 r f)
      = mean (fun g => val_main_v16 (F := Ideal) x0 x1 x2 (ix2 r g)) (val_main_v20 (F := Ideal) x1 x2 (ix1 r)) f := by
  rw [val_main_v24_apply, count_apply, Ideal.hostDivf_def]
  rfl

/-- The squared length of segment r's mean. -/
theorem sq_apply (r : Fin 600000) :
    val_main_v26 (F := Ideal) x0 x1 x2 (ix1 r)
      = sqLen (fun g => val_main_v16 (F := Ideal) x0 x1 x2 (ix2 r g)) (val_main_v20 (F := Ideal) x1 x2 (ix1 r)) := by
  rw [val_main_v26_apply, val_main_cst_5_apply, Ideal.ofBits_def, Ideal.ofBits_zero_f32, zero_add]
  unfold sqLen
  refine Finset.sum_congr rfl fun k _ => ?_
  rw [idx_sum, val_main_v25_apply, Ideal.mulf_def, mean_apply]

/-- The normalised mean of segment r at feature f. -/
theorem hyp_apply (r : Fin 600000) (f : Fin 64) :
    val_main_v33 (F := Ideal) x0 x1 x2 (ix2 r f)
      = hyp (fun g => val_main_v16 (F := Ideal) x0 x1 x2 (ix2 r g)) (val_main_v20 (F := Ideal) x1 x2 (ix1 r)) f := by
  rw [val_main_v33_apply, val_main_v32_apply, val_main_v31_apply, val_main_v30_apply, val_main_cst_7_apply,
    val_main_v29_apply, val_main_v28_apply, val_main_cst_6_apply, val_main_v27_apply, idx_norm, sq_apply, mean_apply,
    Ideal.hostDivf_def, Ideal.subf_def, Ideal.mulf_def, Ideal.ofBits_def, Ideal.ofBits_def]
  rfl

/-- Entry k of node n's concatenated row. -/
theorem cat_apply (n : Fin 100000) (k : Fin 384) :
    val_main_v36 (F := Ideal) x0 x1 x2 (ix2 n k)
      = cat (fun t f => val_main_v16 (F := Ideal) x0 x1 x2 (ix2 (seg t n) f))
          (fun t => val_main_v20 (F := Ideal) x1 x2 (ix1 (seg t n))) k := by
  rw [val_main_v36_apply, val_main_v35_apply, val_main_v34_apply, idx_row, hyp_apply]
  rfl

/-- The row against column q of the weights, plus the bias. -/
theorem affine_apply (n : Fin 100000) (q : Fin 64) :
    val_main_v40 (F := Ideal) x0 x1 x2 x3 x4 (ix2 n q)
      = (∑ k : Fin 384, cat (fun t f => val_main_v16 (F := Ideal) x0 x1 x2 (ix2 (seg t n) f))
            (fun t => val_main_v20 (F := Ideal) x1 x2 (ix1 (seg t n))) k * x3 (ix2 k q)) + x4 (ix1 q) := by
  rw [val_main_v40_apply, val_main_v37_apply, val_main_v39_apply, val_main_v38_apply, idx_bias, Ideal.addf_def]
  refine congrArg (· + x4 (ix1 q)) (Finset.sum_congr rfl fun k _ => ?_)
  rw [idx_lhs, idx_rhs, cat_apply]

/-- Layer 1 after its first floor at zero. -/
theorem layer1_v41_apply (n : Fin 100000) (q : Fin 64) :
    val_main_v41 (F := Ideal) x0 x1 x2 x3 x4 (ix2 n q)
      = out (cat (fun t f => val_main_v16 (F := Ideal) x0 x1 x2 (ix2 (seg t n) f))
              (fun t => val_main_v20 (F := Ideal) x1 x2 (ix1 (seg t n))))
            (fun k => x3 (ix2 k q)) (x4 (ix1 q)) := by
  rw [val_main_v41_apply, val_main_call1_v0_apply, val_main_call1_cst_apply, affine_apply, Ideal.maximumf_def,
    Ideal.ofBits_def]
  rfl

/-- Layer 1: the second floor at zero changes nothing. -/
theorem layer1_apply (n : Fin 100000) (q : Fin 64) :
    val_main_v42 (F := Ideal) x0 x1 x2 x3 x4 (ix2 n q)
      = out (cat (fun t f => val_main_v16 (F := Ideal) x0 x1 x2 (ix2 (seg t n) f))
              (fun t => val_main_v20 (F := Ideal) x1 x2 (ix1 (seg t n))))
            (fun k => x3 (ix2 k q)) (x4 (ix1 q)) := by
  rw [val_main_v42_apply, val_main_call2_v0_apply, val_main_call2_cst_apply, layer1_v41_apply, Ideal.maximumf_def,
    Ideal.ofBits_def]
  exact max_zero_idem _

/-! ## Layer 2: the same operations over layer 1's output, with sixteen output columns and one floor at zero -/

theorem idx_count2 (r : Fin 600000) (f : Fin 64) : idx_main_v61 (idx_main_v62 (ix2 r f)) = ix1 r :=
  funext fun a => Fin.ext (by match a with | ⟨0, _⟩ => rfl)

theorem idx_sum2 (r : Fin 600000) (k : Fin 64) : idx_main_v65 (ix1 r) k = ix2 r k :=
  funext fun a => Fin.ext (by match a with | ⟨0, _⟩ => rfl | ⟨1, _⟩ => rfl)

theorem idx_norm2 (r : Fin 600000) (f : Fin 64) : idx_main_v66 (idx_main_v71 (ix2 r f)) = ix1 r :=
  funext fun a => Fin.ext (by match a with | ⟨0, _⟩ => rfl)

theorem idx_row2 (n : Fin 100000) (k : Fin 384) :
    idx_main_v73 (idx_main_v74 (idx_main_v75 (ix2 n k))) = ix2 (seg (stepOf k) n) (featOf k) :=
  funext fun a => Fin.ext (by
    have hn := n.isLt
    have hk := k.isLt
    match a with
    | ⟨0, _⟩ =>
      show (((n.val * 384 + k.val) / 64 % 6 * 100000 + (n.val * 384 + k.val) / 384) * 64 + (n.val * 384 + k.val) % 64) / 64
        = k.val / 64 * 100000 + n.val
      omega
    | ⟨1, _⟩ =>
      show (((n.val * 384 + k.val) / 64 % 6 * 100000 + (n.val * 384 + k.val) / 384) * 64 + (n.val * 384 + k.val) % 64) % 64
        = k.val % 64
      omega)

theorem idx_lhs2 (n : Fin 100000) (q : Fin 16) (k : Fin 384) : lidx_main_v76 (ix2 n q) k = ix2 n k :=
  funext fun a => Fin.ext (by match a with | ⟨0, _⟩ => rfl | ⟨1, _⟩ => rfl)

theorem idx_rhs2 (n : Fin 100000) (q : Fin 16) (k : Fin 384) : ridx_main_v76 (ix2 n q) k = ix2 k q :=
  funext fun a => Fin.ext (by match a with | ⟨0, _⟩ => rfl | ⟨1, _⟩ => rfl)

theorem idx_bias2 (n : Fin 100000) (q : Fin 16) : idx_main_v77 (idx_main_v78 (ix2 n q)) = ix1 q :=
  funext fun a => Fin.ext (by match a with | ⟨0, _⟩ => rfl)

/-- The divisor at (r, f) is the row's count floored at one. -/
theorem count2_apply (r : Fin 600000) (f : Fin 64) :
    val_main_v62 (F := Ideal) x1 x2 (ix2 r f) = max (val_main_v59 (F := Ideal) x1 x2 (ix1 r)) one := by
  rw [val_main_v62_apply, val_main_v61_apply, val_main_v60_apply, val_main_call3_v1_apply, val_main_call3_v0_apply,
    val_main_cst_14_apply, idx_count2, Ideal.maximumf_def, Ideal.ofBits_def, max_comm]

/-- The mean of segment r at feature f. -/
theorem mean2_apply (r : Fin 600000) (f : Fin 64) :
    val_main_v63 (F := Ideal) x0 x1 x2 x3 x4 (ix2 r f)
      = mean (fun g => val_main_v55 (F := Ideal) x0 x1 x2 x3 x4 (ix2 r g)) (val_main_v59 (F := Ideal) x1 x2 (ix1 r)) f := by
  rw [val_main_v63_apply, count2_apply, Ideal.hostDivf_def]
  rfl

/-- The squared length of segment r's mean. -/
theorem sq2_apply (r : Fin 600000) :
    val_main_v65 (F := Ideal) x0 x1 x2 x3 x4 (ix1 r)
      = sqLen (fun g => val_main_v55 (F := Ideal) x0 x1 x2 x3 x4 (ix2 r g)) (val_main_v59 (F := Ideal) x1 x2 (ix1 r)) := by
  rw [val_main_v65_apply, val_main_cst_15_apply, Ideal.ofBits_def, Ideal.ofBits_zero_f32, zero_add]
  unfold sqLen
  refine Finset.sum_congr rfl fun k _ => ?_
  rw [idx_sum2, val_main_v64_apply, Ideal.mulf_def, mean2_apply]

/-- The normalised mean of segment r at feature f. -/
theorem hyp2_apply (r : Fin 600000) (f : Fin 64) :
    val_main_v72 (F := Ideal) x0 x1 x2 x3 x4 (ix2 r f)
      = hyp (fun g => val_main_v55 (F := Ideal) x0 x1 x2 x3 x4 (ix2 r g)) (val_main_v59 (F := Ideal) x1 x2 (ix1 r)) f := by
  rw [val_main_v72_apply, val_main_v71_apply, val_main_v70_apply, val_main_v69_apply, val_main_cst_17_apply,
    val_main_v68_apply, val_main_v67_apply, val_main_cst_16_apply, val_main_v66_apply, idx_norm2, sq2_apply, mean2_apply,
    Ideal.hostDivf_def, Ideal.subf_def, Ideal.mulf_def, Ideal.ofBits_def, Ideal.ofBits_def]
  rfl

/-- Entry k of node n's concatenated row. -/
theorem cat2_apply (n : Fin 100000) (k : Fin 384) :
    val_main_v75 (F := Ideal) x0 x1 x2 x3 x4 (ix2 n k)
      = cat (fun t f => val_main_v55 (F := Ideal) x0 x1 x2 x3 x4 (ix2 (seg t n) f))
          (fun t => val_main_v59 (F := Ideal) x1 x2 (ix1 (seg t n))) k := by
  rw [val_main_v75_apply, val_main_v74_apply, val_main_v73_apply, idx_row2, hyp2_apply]
  rfl

/-- The row against column q of the weights, plus the bias. -/
theorem affine2_apply (n : Fin 100000) (q : Fin 16) :
    val_main_v79 (F := Ideal) x0 x1 x2 x3 x4 x5 x6 (ix2 n q)
      = (∑ k : Fin 384, cat (fun t f => val_main_v55 (F := Ideal) x0 x1 x2 x3 x4 (ix2 (seg t n) f))
            (fun t => val_main_v59 (F := Ideal) x1 x2 (ix1 (seg t n))) k * x5 (ix2 k q)) + x6 (ix1 q) := by
  rw [val_main_v79_apply, val_main_v76_apply, val_main_v78_apply, val_main_v77_apply, idx_bias2, Ideal.addf_def]
  refine congrArg (· + x6 (ix1 q)) (Finset.sum_congr rfl fun k _ => ?_)
  rw [idx_lhs2, idx_rhs2, cat2_apply]

/-- Layer 2. -/
theorem layer2_apply (n : Fin 100000) (q : Fin 16) :
    val_main_v80 (F := Ideal) x0 x1 x2 x3 x4 x5 x6 (ix2 n q)
      = out (cat (fun t f => val_main_v55 (F := Ideal) x0 x1 x2 x3 x4 (ix2 (seg t n) f))
              (fun t => val_main_v59 (F := Ideal) x1 x2 (ix1 (seg t n))))
            (fun k => x5 (ix2 k q)) (x6 (ix1 q)) := by
  rw [val_main_v80_apply, val_main_call4_v0_apply, val_main_call4_cst_apply, affine2_apply, Ideal.maximumf_def,
    Ideal.ofBits_def]
  rfl

end Cert.RefLayers

end
-- ==== Proof.Bridge.lean ====
/-
  The kernel's result array is the reference's result, entry by entry.

  Both programs compute, layer by layer, the same function of the same segment sums and counts: the kernel's pipeline
  leaves in its result array the layer's output read off a stack [6, 100000, 64] of sums and a [100000, 6] matrix of
  counts, the reference reads the flat [600000, 64] and [600000] arrays at row t · 100000 + n — the reshape and the
  transpose between them move no value. The first layer's results being equal, the second layer's segment sums are the
  same operations applied to equal arrays. The reference floors the first layer's result at zero a second time, which
  changes nothing.
-/
import proofs.«160740_j78606491451779_2_alg».proof.Proof.HostSide
import proofs.«160740_j78606491451779_2_alg».proof.Proof.KernelRun
import proofs.«160740_j78606491451779_2_alg».proof.Proof.Blocks0
import proofs.«160740_j78606491451779_2_alg».proof.Proof.Blocks1
import proofs.«160740_j78606491451779_2_alg».proof.Proof.RefLayers

set_option maxRecDepth 16384

noncomputable section

namespace Cert.Bridge

open Cert.KernelIdeal Cert.KernelIdeal.Gen Cert.KernelIdeal.HostSide
open Idealize.ShloMosaic Idealize.ShloMosaic.TcCoe Idealize.SL.Sem Idealize.ShloMosaic.ValueIdx
open Cert.RefLayers (seg)
open Cert.ReferenceIdeal.Read (val_main_v16 val_main_v20 val_main_v42 val_main_v55 val_main_v59 val_main_v80)

/-- Entry (t, n, f) of the stack of sums is row t · 100000 + n, column f of the flat array. -/
theorem sums_at {α : Type} (S : S600000x64.Idx → α) (t : Fin 6) (n : Fin 100000) (f : Fin 64) :
    shapeCast S6x100000x64 S shapeCasts_S600000x64_S6x100000x64 (ix3 t n f) = S (ix2 (seg t n) f) :=
  shapeCast_apply S shapeCasts_S600000x64_S6x100000x64 _ _ (by
    rw [Shape.rowMajor_val_two, Shape.rowMajor_val_three]
    show (t.val * 100000 + n.val) * 64 + f.val = (t.val * 100000 + n.val) * 64 + f.val
    rfl)

/-- Entry (n, t) of the matrix of counts is entry t · 100000 + n of the flat array. -/
theorem counts_at {α : Type} (Cn : S600000.Idx → α) (n : Fin 100000) (t : Fin 6) :
    transpose S100000x6 [1, 0] (shapeCast S6x100000 Cn shapeCasts_S600000_S6x100000) transposes_S6x100000_S100000x6_1_0
        (ix2 n t) = Cn (ix1 (seg t n)) := by
  refine (transpose_apply [1, 0] _ transposes_S6x100000_S100000x6_1_0 (ix2 n t) (ix2 t n) (fun b => ?_)).trans ?_
  · match b with
    | ⟨0, _⟩ => rfl
    | ⟨1, _⟩ => rfl
  · exact shapeCast_apply Cn shapeCasts_S600000_S6x100000 _ _ (by
      rw [Shape.rowMajor_val_one, Shape.rowMajor_val_two]
      show t.val * 100000 + n.val = t.val * 100000 + n.val
      rfl)

/-- The bias as a row: entry (0, q) is the vector's entry q. -/
theorem bias64_at {α : Type} (b : S64.Idx → α) (q : Fin 64) :
    shapeCast S1x64 b shapeCasts_S64_S1x64 (ix2 (0 : Fin 1) q) = b (ix1 q) :=
  shapeCast_apply b shapeCasts_S64_S1x64 _ _ (by
    rw [Shape.rowMajor_val_one, Shape.rowMajor_val_two]
    show q.val = 0 * 64 + q.val
    omega)

theorem bias16_at {α : Type} (b : S16.Idx → α) (q : Fin 16) :
    shapeCast S1x16 b shapeCasts_S16_S1x16 (ix2 (0 : Fin 1) q) = b (ix1 q) :=
  shapeCast_apply b shapeCasts_S16_S1x16 _ _ (by
    rw [Shape.rowMajor_val_one, Shape.rowMajor_val_two]
    show q.val = 0 * 16 + q.val
    omega)

/-- The second layer's segment sums are the first layer's operations applied to the first layer's result. -/
theorem sums2_eq (x0 : (⟨S100000x64, .f32⟩ : BufTy).Contents (Elt Ideal)) (x1 : (⟨S2x1600000, .i32⟩ : BufTy).Contents (Elt Ideal))
    (x2 : (⟨S1600000, .i32⟩ : BufTy).Contents (Elt Ideal)) (x3 : (⟨S384x64, .f32⟩ : BufTy).Contents (Elt Ideal))
    (x4 : (⟨S64, .f32⟩ : BufTy).Contents (Elt Ideal)) :
    val_main_v55 (F := Ideal) x0 x1 x2 x3 x4 = val_main_v16 (F := Ideal) (val_main_v42 (F := Ideal) x0 x1 x2 x3 x4) x1 x2 := rfl

/-- The second layer counts the same edges. -/
theorem counts2_eq (x1 : (⟨S2x1600000, .i32⟩ : BufTy).Contents (Elt Ideal)) (x2 : (⟨S1600000, .i32⟩ : BufTy).Contents (Elt Ideal)) :
    val_main_v59 (F := Ideal) x1 x2 = val_main_v20 (F := Ideal) x1 x2 := rfl

variable (m : (ℓ : Loc nD τ sig) → Buf (Elt Ideal) ℓ) (ρ : Dev nD → PrngReg)

/-- The first pipeline's result array at (n, q), over the arrays it was entered with. -/
theorem layer1_at (c : Dev nD) (n : Fin 100000) (q : Fin 64) :
    (W2 m ρ c (Proc.devRef .tc main_v26) : S100000x64.Idx → EReal) (ix2 n q)
      = Hyp.out (Hyp.cat (fun t f => V1 m ρ c main_v23 (ix3 t n f)) (fun t => V1 m ρ c main_v12 (ix2 n t)))
          (fun k => V1 m ρ c main_v24 (ix2 k q)) (V1 m ρ c main_v25 (ix2 (0 : Fin 1) q)) := by
  rw [w2_result, Cert.KernelIdeal.Blocks0.final (V1 m ρ) c, Cert.KernelIdeal.Blocks0.layerOut_apply]

/-- THE FIRST LAYER: what the first pipeline leaves is the reference's first-layer result (floored twice). -/
theorem layer1_eq (c : Dev nD) :
    (W2 m ρ c (Proc.devRef .tc main_v26) : S100000x64.Idx → EReal)
      = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext y
  obtain ⟨n, q, rfl⟩ : ∃ (n : Fin 100000) (q : Fin 64), y = ix2 n q := ⟨y 0, y 1, eq_ix2 y⟩
  rw [layer1_at, Cert.RefLayers.layer1_apply]
  have es : ∀ (t : Fin 6) (f : Fin 64), V1 m ρ c main_v23 (ix3 t n f)
      = val_main_v16 (F := Ideal) (m ((c : Thread nD τ).loc main_arg0)) (m ((c : Thread nD τ).loc main_arg1)) (m ((c : Thread nD τ).loc main_arg2)) (ix2 (seg t n) f) := fun t f => by
    rw [entry0_sums, sums_at]
  have ec : ∀ t : Fin 6, V1 m ρ c main_v12 (ix2 n t)
      = val_main_v20 (F := Ideal) (m ((c : Thread nD τ).loc main_arg1)) (m ((c : Thread nD τ).loc main_arg2)) (ix1 (seg t n)) := fun t => by
    rw [entry0_counts, counts_at]
  have ew : ∀ k : Fin 384, V1 m ρ c main_v24 (ix2 k q) = (m ((c : Thread nD τ).loc main_arg3)) (ix2 k q) := fun k => by
    rw [entry0_weights]; rfl
  have eb : V1 m ρ c main_v25 (ix2 (0 : Fin 1) q) = (m ((c : Thread nD τ).loc main_arg4)) (ix1 q) := by
    rw [entry0_bias, bias64_at]
  simp only [es, ec, ew, eb]

/-- The second pipeline's result array at (n, q), over the arrays it was entered with. -/
theorem layer2_at (c : Dev nD) (n : Fin 100000) (q : Fin 16) :
    (W4 m ρ c (Proc.devRef .tc main_v40) : S100000x16.Idx → EReal) (ix2 n q)
      = Hyp.out (Hyp.cat (fun t f => V3 m ρ c main_v37 (ix3 t n f)) (fun t => V3 m ρ c main_v12 (ix2 n t)))
          (fun k => V3 m ρ c main_v38 (ix2 k q)) (V3 m ρ c main_v39 (ix2 (0 : Fin 1) q)) := by
  rw [Cert.KernelIdeal.RunValue.result_eq, Cert.KernelIdeal.Blocks1.final (V3 m ρ) c,
    Cert.KernelIdeal.Blocks1.layerOut_apply]

/-- THE RESULT: what the second pipeline leaves is the reference's result. -/
theorem result_eq (c : Dev nD) :
    (W4 m ρ c (Proc.devRef .tc main_v40) : S100000x16.Idx → EReal)
      = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨n, q, rfl⟩ : ∃ (n : Fin 100000) (q : Fin 16), y = ix2 n q := ⟨y 0, y 1, eq_ix2 y⟩
  rw [layer2_at, Cert.RefLayers.layer2_apply]
  have es : ∀ (t : Fin 6) (f : Fin 64), V3 m ρ c main_v37 (ix3 t n f)
      = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (seg t n) f) := fun t f => by
    rw [entry1_sums, sums_at, layer1_eq, sums2_eq]
  have ec : ∀ t : Fin 6, V3 m ρ c main_v12 (ix2 n t)
      = val_main_v59 (F := Ideal) (m ((c : Thread nD τ).loc main_arg1)) (m ((c : Thread nD τ).loc main_arg2)) (ix1 (seg t n)) := fun t => by
    rw [entry1_counts, entry0_counts, counts_at, counts2_eq]
  have ew : ∀ k : Fin 384, V3 m ρ c main_v38 (ix2 k q) = (m ((c : Thread nD τ).loc main_arg5)) (ix2 k q) := fun k => by
    rw [entry1_weights]; rfl
  have eb : V3 m ρ c main_v39 (ix2 (0 : Fin 1) q) = (m ((c : Thread nD τ).loc main_arg6)) (ix1 q) := by
    rw [entry1_bias, bias16_at]
  simp only [es, ec, ew, eb]

end Cert.Bridge

end
-- ==== Proof.lean ====
/- The proof of `Cert.Claim`: the two-layer temporal graph network computed by a tiled kernel is, over the extended
   reals, the network its plain reference computes.

   Each layer gathers the source features of every edge, sums them per segment (time step, target node), divides by the
   segment's edge count floored at one, normalises by one minus c² times the squared length of the mean, lays a node's
   six time steps side by side and applies one affine map followed by a floor at zero. The kernel does the gathering
   and summing on the host exactly as the reference does and runs the rest tile by tile over 2000 nodes at a time, the
   six normalised blocks staged in a scratch buffer and multiplied by the weights in one product of inner size 384; the
   reference works on the flat [600000, 64] array and re-lays it before its product.

   The three frame claims are the generated frames (the reference's is its generated run with the result dropped); no
   operation was rewritten by the ideal pass, so the idealization claim is trivial; the value claim pairs the kernel's run
   with its result named (Proof/KernelRun.lean) with the reference's generated run, the two results being one function
   of the arguments (Proof/Bridge.lean): per tile the body's stores read back as the layer's output (Proof/Tile0.lean,
   Proof/Tile1.lean over Proof/TileMath.lean), the tiles cover the result array (Proof/Blocks0.lean, Proof/Blocks1.lean),
   the region-entry arrays are the reference's own stages of the arguments (Proof/HostSide.lean), and the reference's
   stages read at an index are the same layer (Proof/RefLayers.lean), all against the specification in
   Proof/LayerSpec.lean. No finiteness of the inputs is used: the two sides apply the same operations to the same
   entries, up to the order of one maximum, a zero added to a sum, and a second floor at zero. -/
import proofs.«160740_j78606491451779_2_alg».proof.Defs
import proofs.«160740_j78606491451779_2_alg».proof.Proof.Gen.Kernel
import proofs.«160740_j78606491451779_2_alg».proof.Proof.Gen.Kernel.Skeleton
import proofs.«160740_j78606491451779_2_alg».proof.Proof.Gen.Kernel.Launch
import proofs.«160740_j78606491451779_2_alg».proof.Proof.Gen.Kernel.Points
import proofs.«160740_j78606491451779_2_alg».proof.Proof.Gen.Kernel.Frame
import proofs.«160740_j78606491451779_2_alg».proof.Proof.Gen.KernelIdeal
import proofs.«160740_j78606491451779_2_alg».proof.Proof.Gen.KernelIdeal.Skeleton
import proofs.«160740_j78606491451779_2_alg».proof.Proof.Gen.KernelIdeal.Launch
import proofs.«160740_j78606491451779_2_alg».proof.Proof.Gen.KernelIdeal.Points
import proofs.«160740_j78606491451779_2_alg».proof.Proof.Gen.KernelIdeal.Frame
import proofs.«160740_j78606491451779_2_alg».proof.Proof.Gen.ReferenceIdeal
import proofs.«160740_j78606491451779_2_alg».proof.Proof.Gen.Pre_finite_inputs
import proofs.«160740_j78606491451779_2_alg».proof.Proof.Bridge
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the same result array. -/
theorem algebraic : Cert.algebraic_KernelIdeal_ReferenceIdeal := by
  intro m ρ m' ρ' _ hagree
  refine ⟨fun c => Cert.KernelIdeal.Gen.W4 m ρ c (Proc.devRef .tc Cert.KernelIdeal.main_v40),
    Cert.KernelIdeal.RunValue.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v80_eq, (hagree c).1, (hagree c).2.1, (hagree c).2.2.1, (hagree c).2.2.2.1,
    (hagree c).2.2.2.2.1, (hagree c).2.2.2.2.2.1, (hagree c).2.2.2.2.2.2]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
